-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S1x256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) (main_arg6 : FVec F S1x256 .f32) (main_arg7 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S10000x1 : Shape := ⟨2, ![10000, 1]⟩
abbrev S400x10000 : Shape := ⟨2, ![400, 10000]⟩
abbrev S400x256 : Shape := ⟨2, ![400, 256]⟩
abbrev S400x1 : Shape := ⟨2, ![400, 1]⟩
abbrev S400 : Shape := ⟨1, ![400]⟩

abbrev nBuf : Space → Nat
  | .hbm => 16
  | .vmem => 15
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S10000x256, .bf16⟩
  | .hbm, ⟨9, _⟩ => ⟨S256x256, .bf16⟩
  | .hbm, ⟨10, _⟩ => ⟨S256x256, .bf16⟩
  | .hbm, ⟨11, _⟩ => ⟨S1x256, .f32⟩
  | .hbm, ⟨12, _⟩ => ⟨S1x256, .f32⟩
  | .hbm, ⟨13, _⟩ => ⟨S1x1, .f32⟩
  | .hbm, ⟨14, _⟩ => ⟨S10000x256, .f32⟩
  | .hbm, ⟨15, _⟩ => ⟨S10000x1, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S256x256, .bf16⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S400x256, .f32⟩
  | .local _ .vmem, ⟨10, _⟩ => ⟨S400x256, .f32⟩
  | .local _ .vmem, ⟨11, _⟩ => ⟨S400x1, .f32⟩
  | .local _ .vmem, ⟨12, _⟩ => ⟨S400x1, .f32⟩
  | .local _ .vmem, ⟨13, _⟩ => ⟨S10000x256, .bf16⟩
  | .local _ .vmem, ⟨14, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c400_i32 : BitVec 32 := 400#32
  let v26 : BitVec 32 := Scalar.muli arg1 c400_i32
  let v27 : Index := Scalar.indexCast v26
  let c0_14 : Index := 0#32
  ![v27.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S400x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  shapeCasts_S256_S1x256 : S256.ShapeCasts S1x256
  shapeCasts_S1_S1x1 : S1.ShapeCasts S1x1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  h_S400x256 : 0 < S400x256.numel
  shapeCasts_S400x256_S400x256 : S400x256.ShapeCasts S400x256
  inb_S400x256_S400x256_0_0 : ∀ a, (![0, 0] : Fin 2 → Nat) a + S400x256.size a ≤ S400x256.size a
  reduces_S400x256_S400 : S400x256.Reduces [1] S400
  shapeCasts_S400_S400x1 : S400.ShapeCasts S400x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S400x1 : S1x1.Broadcasts S400x1
  inb_S400x1_S400x1_0_0 : ∀ a, (![0, 0] : Fin 2 → Nat) a + S400x1.size a ≤ S400x1.size a
  h_S400x1 : 0 < S400x1.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ (k0_h2 : k0_cond2 i = 1#1), ∀ a, (k0_off1 i) a + S400x256.size a ≤ S10000x256.size a
  k0_off1_packedbf16 : ∀ i : grid0.Coords, ∀ (k0_h2 : k0_cond2 i = 1#1), (Rect.unit (s := S10000x256) (k0_off1 i) S400x256.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x256.size a ≤ S10000x256.size a
  hwx0_8 : ∀ i : grid0.Coords, EltTy.bits .f32 = 32 ∨ (Rect.block (s := S10000x256) S400x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x1.size a ≤ S10000x1.size a
  hwx0_9 : ∀ i : grid0.Coords, EltTy.bits .f32 = 32 ∨ (Rect.block (s := S10000x1) S400x1.size (cc0_transform_9 i) (hinb0_9 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S400x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S400x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | 9 => fun i => !(k0_cond3 i == 1#1) | ⟨_ + 10, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩
abbrev S256x1 : Shape := ⟨2, ![256, 1]⟩
abbrev S10000x1 : Shape := ⟨2, ![10000, 1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S10000x256, .f32⟩
  | .hbm, ⟨9, _⟩ => ⟨S10000x256, .f32⟩
  | .hbm, ⟨10, _⟩ => ⟨S1x256, .f32⟩
  | .hbm, ⟨11, _⟩ => ⟨S10000x256, .f32⟩
  | .hbm, ⟨12, _⟩ => ⟨S10000x256, .f32⟩
  | .hbm, ⟨13, _⟩ => ⟨S_, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S10000x256, .f32⟩
  | .hbm, ⟨18, _⟩ => ⟨S1x256, .f32⟩
  | .hbm, ⟨19, _⟩ => ⟨S10000x256, .f32⟩
  | .hbm, ⟨20, _⟩ => ⟨S10000x256, .f32⟩
  | .hbm, ⟨21, _⟩ => ⟨S_, .f32⟩
  | .hbm, ⟨22, _⟩ => ⟨S10000x256, .f32⟩
  | .hbm, ⟨23, _⟩ => ⟨S10000x256, .f32⟩
  | .hbm, ⟨24, _⟩ => ⟨S256x1, .f32⟩
  | .hbm, ⟨25, _⟩ => ⟨S10000x1, .f32⟩
  | .hbm, ⟨26, _⟩ => ⟨S1x1, .f32⟩
  | .hbm, ⟨27, _⟩ => ⟨S10000x1, .f32⟩
  | .hbm, ⟨28, _⟩ => ⟨S10000x1, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x1_S10000x1_1_0_0_1_n_n_wf : DotDims.WF S10000x256 S256x1 S10000x1 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.BodyBits.Shared.lean ====
/-
  The grid of the fused two-layer graph convolution has 50 points: layer 0 over 25 row blocks of the adjacency,
  then layer 1 over the same 25 blocks. The body branches three times on the point: at the very first point it
  forms the first support matrix x·W1 into the first scratch; at every point of layer 0 it stores 400 rows of the
  second support matrix into the second scratch; at every point of layer 1 it stores a block of the embedding and
  of the score. Here: those three conditions decided over the grid, the rows a layer-0 point stores, where the two
  output windows are idle and where they are written back, and the names of the memrefs the body is called with.
-/
import proofs.«154270_g52089363366198_cont_9to1_m_650_7_alg».proof.Proof.Gen.Kernel.Frame
import proofs.«154270_g52089363366198_cont_9to1_m_650_7_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, decided over the grid -/

/-- The first branch: layer 0 and row block 0 together. -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The second branch: layer 0. -/
abbrev inLayer0 (i : grid0.Coords) : Prop := k0_cond2 i = 1#1
/-- It holds at the first 25 points. -/
theorem inLayer0_iff : ∀ t : Fin cfg0.N, inLayer0 (grid0.coords t) ↔ t.val < 25 :=
  (by decide +kernel : ∀ t : Fin grid0.N, inLayer0 (grid0.coords t) ↔ t.val < 25)

/-- The third branch: layer 1. -/
abbrev inLayer1 (i : grid0.Coords) : Prop := k0_cond3 i = 1#1
/-- It holds at the last 25 points. -/
theorem inLayer1_iff : ∀ t : Fin cfg0.N, inLayer1 (grid0.coords t) ↔ 25 ≤ t.val :=
  (by decide +kernel : ∀ t : Fin grid0.N, inLayer1 (grid0.coords t) ↔ 25 ≤ t.val)

/-- A layer-0 point `t` stores rows `400 t … 400 t + 399`, every column, of the second scratch. -/
theorem rowsOf_layer0 : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- In layer 0 the body stores nothing into the embedding's window, -/
theorem idle8 : ∀ t : Fin cfg0.N, t.val < 25 → cfg0.idle 8 (grid0.coords t) = true := by decide +kernel
/-- and the pipeline does not write its block back; -/
theorem noFlush8 : ∀ t : Fin cfg0.N, t.val < 25 → (cfg0.win 8).flush t = false := by decide +kernel
/-- in layer 1 it is live, -/
theorem live8 : ∀ t : Fin cfg0.N, 25 ≤ t.val → cfg0.idle 8 (grid0.coords t) = false := by decide +kernel
/-- and written back after every point. -/
theorem flush8 : ∀ t : Fin cfg0.N, 25 ≤ t.val → (cfg0.win 8).flush t = true := by decide +kernel
/-- The same for the score's window. -/
theorem idle9 : ∀ t : Fin cfg0.N, t.val < 25 → cfg0.idle 9 (grid0.coords t) = true := by decide +kernel
theorem noFlush9 : ∀ t : Fin cfg0.N, t.val < 25 → (cfg0.win 9).flush t = false := by decide +kernel
theorem live9 : ∀ t : Fin cfg0.N, 25 ≤ t.val → cfg0.idle 9 (grid0.coords t) = false := by decide +kernel
theorem flush9 : ∀ t : Fin cfg0.N, 25 ≤ t.val → (cfg0.win 9).flush t = true := by decide +kernel

/-! ## The memrefs the body is called with -/

abbrev mAdj (t : Fin cfg0.N) : Memref sig .tc .vmem S400x10000 .f32 := win0_0.stage (cfg0.slots t 0)
abbrev hAdj (t : Fin cfg0.N) : (mAdj t).IsWhole := hstage0_0 ((cfg0.slots t 0).cast nbuf0_0)
abbrev mX (t : Fin cfg0.N) : Memref sig .tc .vmem S10000x256 .bf16 := win0_1.stage (cfg0.slots t 1)
abbrev hX (t : Fin cfg0.N) : (mX t).IsWhole := hstage0_1 ((cfg0.slots t 1).cast nbuf0_1)
abbrev mW1 (t : Fin cfg0.N) : Memref sig .tc .vmem S256x256 .bf16 := win0_2.stage (cfg0.slots t 2)
abbrev hW1 (t : Fin cfg0.N) : (mW1 t).IsWhole := hstage0_2 ((cfg0.slots t 2).cast nbuf0_2)
abbrev mB1 (t : Fin cfg0.N) : Memref sig .tc .vmem S1x256 .f32 := win0_3.stage (cfg0.slots t 3)
abbrev hB1 (t : Fin cfg0.N) : (mB1 t).IsWhole := hstage0_3 ((cfg0.slots t 3).cast nbuf0_3)
abbrev mW2 (t : Fin cfg0.N) : Memref sig .tc .vmem S256x256 .bf16 := win0_4.stage (cfg0.slots t 4)
abbrev hW2 (t : Fin cfg0.N) : (mW2 t).IsWhole := hstage0_4 ((cfg0.slots t 4).cast nbuf0_4)
abbrev mB2 (t : Fin cfg0.N) : Memref sig .tc .vmem S1x256 .f32 := win0_5.stage (cfg0.slots t 5)
abbrev hB2 (t : Fin cfg0.N) : (mB2 t).IsWhole := hstage0_5 ((cfg0.slots t 5).cast nbuf0_5)
abbrev mW3 (t : Fin cfg0.N) : Memref sig .tc .vmem S1x256 .f32 := win0_6.stage (cfg0.slots t 6)
abbrev hW3 (t : Fin cfg0.N) : (mW3 t).IsWhole := hstage0_6 ((cfg0.slots t 6).cast nbuf0_6)
abbrev mB3 (t : Fin cfg0.N) : Memref sig .tc .vmem S1x1 .f32 := win0_7.stage (cfg0.slots t 7)
abbrev hB3 (t : Fin cfg0.N) : (mB3 t).IsWhole := hstage0_7 ((cfg0.slots t 7).cast nbuf0_7)
abbrev mEmb (t : Fin cfg0.N) : Memref sig .tc .vmem S400x256 .f32 := win0_8.stage (cfg0.slots t 8)
abbrev hEmb (t : Fin cfg0.N) : (mEmb t).IsWhole := hstage0_8 ((cfg0.slots t 8).cast nbuf0_8)
abbrev mScore (t : Fin cfg0.N) : Memref sig .tc .vmem S400x1 .f32 := win0_9.stage (cfg0.slots t 9)
abbrev hScore (t : Fin cfg0.N) : (mScore t).IsWhole := hstage0_9 ((cfg0.slots t 9).cast nbuf0_9)
/-- The two scratch operands: the first and the second support matrix. -/
abbrev mS1 : Memref sig .tc .vmem S10000x256 .bf16 := Memref.whole cc0_scratch0
abbrev mS2 : Memref sig .tc .vmem S10000x256 .bf16 := Memref.whole cc0_scratch1

/-- What the launch hands the region besides the windows: both scratch buffers at some contents and the generator
    register at some state. -/
theorem scopedAtEntry (c : Dev nD) :
    (Pipeline.ΦA spec0 c : sProp 𝕄)
      = iprop(iprop((∃ d, owns (c : Thread nD τ) mS1 fullShare d) ∗ (∃ d, owns (c : Thread nD τ) mS2 fullShare d)) ∗ (∃ r, prngReg c r)) := by
  unfold Pipeline.ΦA; rw [scopedRest0_eq]; simp only [mS1, mS2, owns_whole]; try rfl

end Cert.Kernel.Body

end
-- ==== Proof.BodyBits.RunFirst.lean ====
/-
  The body at the grid's first point. It forms the first support matrix from the node features and the first
  weight matrix and stores it whole into the first scratch; then, as at every point of layer 0, it stores 400 rows
  of the second support matrix into the second scratch. The two output buffers are not touched. The run is stated
  with the stores it leaves in each scratch as lists of pieces that the run itself finds.
-/
import proofs.«154270_g52089363366198_cont_9to1_m_650_7_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the inputs' buffers and the two output buffers are handed back as they were; the first
    scratch, handed over at anything, comes back with the pieces `L.1` written; the second scratch, handed over at
    `xs1`, comes back as `xs1` with the pieces `L.2.1` written over it. -/
noncomputable def runFirst (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs1 : Vec F S10000x256 .bf16) :
    Σ' (LS0 : List (View.Piece (Elt F) S10000x256 .bf16)), { LS1 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexact HS1

end Cert.Kernel.Body

end
-- ==== Proof.BodyBits.RunLayer0.lean ====
/-
  The body at a later point of layer 0. It multiplies the point's 400 rows of the adjacency with the first support
  matrix (read whole from the first scratch), adds the first bias, clamps at zero, multiplies with the second weight
  matrix and stores the 400 rows of the second support matrix into the second scratch at the point's rows. Nothing
  else is written.
-/
import proofs.«154270_g52089363366198_cont_9to1_m_650_7_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later layer-0 point's run: everything is handed back as it was except the second scratch, which comes back as
    `xs1` with the pieces the run finds written over it. -/
noncomputable def runLayer0 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs0 xs1 : Vec F S10000x256 .bf16) :
    { LS1 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    iexact HS1

end Cert.Kernel.Body

end
-- ==== Proof.BodyBits.RunLayer1.lean ====
/-
  The body at a point of layer 1. It multiplies the point's 400 rows of the adjacency with the second support
  matrix (read whole from the second scratch), adds the second bias and clamps at zero: that is the block of the
  embedding, stored whole into the first output buffer; each row's product with the last weight row, summed, plus
  the last bias is the block of the score, stored whole into the second output buffer. The scratches are only read.
-/
import proofs.«154270_g52089363366198_cont_9to1_m_650_7_alg».proof.Proof.BodyBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A layer-1 point's run: the inputs and both scratches are handed back as they were; each output buffer, handed
    over at anything, comes back with the pieces the run finds written. -/
noncomputable def runLayer1 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : ¬inLayer0 i) (hc2 : inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (xs0 xs1 : Vec F S10000x256 .bf16) :
    Σ' (LE : List (View.Piece (Elt F) S400x256 .f32)), { LSc : List (View.Piece (Elt F) S400x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LE) ∗ (∃ f, arg11.view.loc (c : Thread nD τ) ↦[arg11.view.set]{fullShare} arg11.view.writes (Elt F) f LSc) ∗ owns (c : Thread nD τ) arg12 fullShare xs0 ∗ owns (c : Thread nD τ) arg13 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    iexists _; isplitr; · ipureintro; exact harg13.read_unread _
    iexact HS1

end Cert.Kernel.Body

end
-- ==== Proof.BodyBits.Pieces.lean ====
/-
  What the three runs' stores are. Every load of the body goes through the whole of a buffer, so it reads the
  buffer's contents; hence each store's payload is the body's arithmetic applied to the contents the buffers were
  handed over with. A buffer stored whole reads back as the payload; a store of 400 rows is kept as one piece.
-/
import proofs.«154270_g52089363366198_cont_9to1_m_650_7_alg».proof.Proof.BodyBits.RunFirst
import proofs.«154270_g52089363366198_cont_9to1_m_650_7_alg».proof.Proof.BodyBits.RunLayer0
import proofs.«154270_g52089363366198_cont_9to1_m_650_7_alg».proof.Proof.BodyBits.RunLayer1
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle of a rank-two buffer are zero. -/
theorem zeros2 : (![0, 0] : Fin 2 → ℕ) = fun _ => 0 := funext fun a => by match a with | ⟨0, _⟩ => rfl | ⟨1, _⟩ => rfl

/-- A buffer written once, whole, reads back as what was written, whatever it held. -/
theorem read_written_whole {S : Shape} {e : EltTy} (M : Memref sig .tc .vmem S e) (f : M.view.ty.Contents (Elt F))
    {off : Fin S.rank → ℕ} (h : off = fun _ => 0) (inb : ∀ a, off a + S.size a ≤ S.size a) (w : S.Idx → Elt F e)
    (L : List (View.Piece (Elt F) S e)) (hL : L = [⟨Rect.unit off S.size inb, w⟩]) :
    M.view.read (Elt F) (M.view.writes (Elt F) f L) = w := by
  subst hL
  exact (View.read_writes_eq_canon M.view f _ (fun y => ⟨_, List.mem_singleton_self _, View.mem_set_unit_zero h inb y⟩)).trans
    (View.canon_unit_zero h inb w)

/-- The first point stores `x·W1` whole into the first scratch, -/
theorem runFirst_pieces1 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs1 : Vec F S10000x256 .bf16) :
    (runFirst c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs1).1
      = [⟨Rect.unit (s := S10000x256) ![0, 0] S10000x256.size inb_S10000x256_S10000x256_0_0, k0_pay1 x1 x2⟩] := by
  unfold runFirst; dsimp only
  sl_unfold_run_names
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

/-- and the first 400 rows of the second support matrix, computed from that product, into the second. -/
theorem runFirst_pieces2 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs1 : Vec F S10000x256 .bf16) :
    (runFirst c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs1).2.1
      = [⟨Rect.unit (s := S10000x256) (k0_off1 i) S400x256.size (k0_off1_inb i hc1), k0_pay3 x0 (k0_pay1 x1 x2) x3 x4⟩] := by
  unfold runFirst; dsimp only
  sl_unfold_run_names
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2, View.readCov_unit_zero (S := S10000x256) arg12.view zeros2]

/-- A later layer-0 point stores its 400 rows of the second support matrix, computed from the first scratch. -/
theorem runLayer0_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs0 xs1 : Vec F S10000x256 .bf16) :
    (runLayer0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs0 xs1).1
      = [⟨Rect.unit (s := S10000x256) (k0_off1 i) S400x256.size (k0_off1_inb i hc1), k0_pay3 x0 xs0 x3 x4⟩] := by
  unfold runLayer0; dsimp only
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

/-- A layer-1 point stores the embedding's block whole, -/
theorem runLayer1_piecesEmb (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : ¬inLayer0 i) (hc2 : inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (xs0 xs1 : Vec F S10000x256 .bf16) :
    (runLayer1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1
      = [⟨Rect.unit (s := S400x256) ![0, 0] S400x256.size inb_S400x256_S400x256_0_0, k0_pay4 x0 xs1 x5⟩] := by
  unfold runLayer1; dsimp only
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

/-- and the score's block whole. -/
theorem runLayer1_piecesScore (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : ¬inLayer0 i) (hc2 : inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (xs0 xs1 : Vec F S10000x256 .bf16) :
    (runLayer1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1
      = [⟨Rect.unit (s := S400x1) ![0, 0] S400x1.size inb_S400x1_S400x1_0_0, k0_pay5 x0 xs1 x5 x6 x7⟩] := by
  unfold runLayer1; dsimp only
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

end Cert.Kernel.Body

end
-- ==== Proof.BodyBits.Frame.lean ====
/-
  The frame run of the fused two-layer graph convolution, with what every buffer holds named.

  Write `P = x·W1` for the first support matrix (formed once, at the first point, into the first scratch), and for a
  row block `t` of the adjacency write `R t` for the 400 rows `relu (adj_t · P + b1) · W2` of the second support
  matrix `Q`: the layer-0 point `t` stores `R t` at rows `400 t …` of the second scratch, so after the point `n` of
  layer 0 the rows below `400 (n + 1)` of that scratch are those of `Q`, and from the end of layer 0 on it holds `Q`
  whole. A layer-1 point `t` then leaves `relu (adj_t · Q + b2)` in the embedding's buffer and its rows' products
  with the last weight row, summed, plus the last bias in the score's buffer; both are written back after the point.
  In layer 0 the two output buffers are not touched and not written back.
-/
import proofs.«154270_g52089363366198_cont_9to1_m_650_7_alg».proof.Proof.BodyBits.Pieces
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid's first point. -/
def p0 : Fin cfg0.N := ⟨0, by have : cfg0.N = 50 := N_0; omega⟩

/-- The first support matrix, as the first point forms it from the features' and the first weights' blocks. -/
def support1 (c : Dev nD) : Vec F S10000x256 .bf16 := k0_pay1 (iblk m c 1 p0) (iblk m c 2 p0)

/-- The 400 rows of the second support matrix that the layer-0 point `t` forms from its rows of the adjacency. -/
def support2Rows (c : Dev nD) (t : Fin cfg0.N) : Vec F S400x256 .bf16 :=
  k0_pay3 (iblk m c 0 t) (support1 m c) (iblk m c 3 t) (iblk m c 4 t)

/-- The second support matrix: row `r` is row `r mod 400` of what the point `r / 400` forms. -/
def support2 (c : Dev nD) : Vec F S10000x256 .bf16 := fun y =>
  support2Rows m c ⟨(y 0).val / 400, by have := ValueIdx.idx2_lt0 y; have : cfg0.N = 50 := N_0; omega⟩
    (ValueIdx.ix2 (n0 := 400) (n1 := 256) ⟨(y 0).val % 400, Nat.mod_lt _ (by decide)⟩ ⟨(y 1).val, ValueIdx.idx2_lt1 y⟩)

/-- An entry of the second support matrix, read in the block of the point that forms it. -/
theorem support2_apply (c : Dev nD) (y : S10000x256.Idx) (t : Fin cfg0.N) (x : S400x256.Idx)
    (h0 : (y 0).val = 400 * t.val + (x 0).val) (h1 : (y 1).val = (x 1).val) :
    support2 m c y = support2Rows m c t x := by
  have hx0 := ValueIdx.idx2_lt0 x
  have ht : (⟨(y 0).val / 400, by have := ValueIdx.idx2_lt0 y; have : cfg0.N = 50 := N_0; omega⟩ : Fin cfg0.N) = t :=
    Fin.ext (by show (y 0).val / 400 = t.val; omega)
  unfold support2
  rw [ht]
  refine congrArg (support2Rows m c t) (funext fun a => Fin.ext ?_)
  match a with
  | ⟨0, _⟩ => show (y 0).val % 400 = (x 0).val; omega
  | ⟨1, _⟩ => exact h1

/-- The block of the embedding that the layer-1 point `t` forms, -/
def embBlock (c : Dev nD) (t : Fin cfg0.N) : Vec F S400x256 .f32 := k0_pay4 (iblk m c 0 t) (support2 m c) (iblk m c 5 t)

/-- and the block of the score. -/
def scoreBlock (c : Dev nD) (t : Fin cfg0.N) : Vec F S400x1 .f32 :=
  k0_pay5 (iblk m c 0 t) (support2 m c) (iblk m c 5 t) (iblk m c 6 t) (iblk m c 7 t)

/-- The rows below `400 (n + 1)` of `d` are those of the second support matrix. -/
def Filled (c : Dev nD) (n : ℕ) (d : Vec F S10000x256 .bf16) : Prop :=
  ∀ y : S10000x256.Idx, (y 0).val < 400 * (n + 1) → d y = support2 m c y

/-- Storing the point's 400 rows over contents whose earlier rows are already right makes the rows up to the point's
    last right: inside the stored rows the store's payload is read, at its local index; above them what was there. -/
theorem filled_of_store (c : Dev nD) (t : Fin cfg0.N) (ht : t.val < 25) (M : Memref sig .tc .vmem S10000x256 .bf16) (hM : M.IsWhole)
    (d : Vec F S10000x256 .bf16) (L : List (View.Piece (Elt F) S10000x256 .bf16))
    (inb : ∀ a, (k0_off1 (grid0.coords t)) a + S400x256.size a ≤ S10000x256.size a)
    (hL : L = [⟨Rect.unit (s := S10000x256) (k0_off1 (grid0.coords t)) S400x256.size inb, support2Rows m c t⟩])
    (hprev : t.val ≠ 0 → Filled m c (t.val - 1) d) :
    Filled m c t.val (M.view.read (Elt F) (M.view.writes (Elt F) (hM.unread d) L)) := by
  subst hL
  intro y hy
  by_cases hrow : 400 * t.val ≤ (y 0).val
  · have hy1 := ValueIdx.idx2_lt1 y
    rw [View.read_writes_cons_rows_of_mem M.view (hM.unread d) inb (support2Rows m c t) [] y
      (ValueIdx.ix2 (n0 := 400) (n1 := 256) ⟨(y 0).val - 400 * t.val, by omega⟩ ⟨(y 1).val, hy1⟩) (rowsOf_layer0 t ht)
      (by show (y 0).val = 400 * t.val + ((y 0).val - 400 * t.val); omega) rfl]
    exact (support2_apply m c y t _ (by show (y 0).val = 400 * t.val + ((y 0).val - 400 * t.val); omega) rfl).symm
  · have hpos : t.val ≠ 0 := fun h => hrow (by rw [h]; omega)
    rw [View.read_writes_cons_rows_of_not_mem M.view (hM.unread d) inb (support2Rows m c t) [] y (rowsOf_layer0 t ht) (W := 400) rfl
      (Or.inl (by omega))]
    show M.view.read (Elt F) (hM.unread d) y = _
    rw [hM.read_unread]
    exact hprev hpos y (by omega)

/-! ## The invariant between points, and the proof data -/

/-- Before the first point both scratches hold anything; after the point `n` the first holds the first support
    matrix and the second has its rows below `400 (n + 1)` right. The generator register is never used. -/
def Inv (c : Dev nD) : (n : ℕ) → n ≤ cfg0.N → sProp 𝕄
  | 0, _ => Pipeline.ΦA spec0 c
  | n + 1, _ => iprop(iprop(owns (c : Thread nD τ) mS1 fullShare (support1 m c) ∗ (∃ d, owns (c : Thread nD τ) mS2 fullShare d ∗ ⌜Filled m c n d⌝)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) mS1 fullShare (support1 m c) ∗ (∃ d, owns (c : Thread nD τ) mS2 fullShare d ∗ ⌜Filled m c n d⌝)) ∗ (∃ r, prngReg c r)) := rfl

theorem Inv_pos (c : Dev nD) (n : ℕ) (h : n ≤ cfg0.N) (hz : n ≠ 0) :
    Inv m c n h = iprop(iprop(owns (c : Thread nD τ) mS1 fullShare (support1 m c) ∗ (∃ d, owns (c : Thread nD τ) mS2 fullShare d ∗ ⌜Filled m c (n - 1) d⌝)) ∗ (∃ r, prngReg c r)) := by
  cases n with
  | zero => exact absurd rfl hz
  | succ n => rfl

/-- The proof data on core `c`: the arrays as the region finds them; after the body each input's buffer at its
    block, the embedding's at `embBlock`, the score's at `scoreBlock` (consulted at layer-1 points only: in layer 0
    the two are idle); the invariant `Inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => embBlock m c t
    | ⟨9, _⟩ => scoreBlock m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = embBlock m c t := by dsimp only [dats]
theorem after_9 (c : Dev nD) (t : Fin cfg0.N) : (dats m 0 c).after 9 t = scoreBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mAdj t) fullShare ((dats m 0 c).before 0 t d))
    ∗ (∃ d, owns (c : Thread nD τ) (mX t) fullShare ((dats m 0 c).before 1 t d))
    ∗ (∃ d, owns (c : Thread nD τ) (mW1 t) fullShare ((dats m 0 c).before 2 t d))
    ∗ (∃ d, owns (c : Thread nD τ) (mB1 t) fullShare ((dats m 0 c).before 3 t d))
    ∗ (∃ d, owns (c : Thread nD τ) (mW2 t) fullShare ((dats m 0 c).before 4 t d))
    ∗ (∃ d, owns (c : Thread nD τ) (mB2 t) fullShare ((dats m 0 c).before 5 t d))
    ∗ (∃ d, owns (c : Thread nD τ) (mW3 t) fullShare ((dats m 0 c).before 6 t d))
    ∗ (∃ d, owns (c : Thread nD τ) (mB3 t) fullShare ((dats m 0 c).before 7 t d))
    ∗ (∃ d, owns (c : Thread nD τ) (mEmb t) fullShare ((dats m 0 c).before 8 t d))
    ∗ (∃ d, owns (c : Thread nD τ) (mScore t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' buffers hold their blocks; the point's position says which of the three runs
    applies; the invariant hands the run the scratches and takes them back at the next point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ]
  have hN : t.val < 50 := lt_of_lt_of_eq t.isLt (show cfg0.N = 50 from N_0)
  rw [show (dats m 0 c).leavesExact 0 t = owns (c : Thread nD τ) (mAdj t) fullShare ((dats m 0 c).after 0 t) from by
    unfold Dat.leavesExact; rw [live0 t], after_0]
  rw [show (dats m 0 c).leavesExact 1 t = owns (c : Thread nD τ) (mX t) fullShare ((dats m 0 c).after 1 t) from by
    unfold Dat.leavesExact; rw [live1 t], after_1]
  rw [show (dats m 0 c).leavesExact 2 t = owns (c : Thread nD τ) (mW1 t) fullShare ((dats m 0 c).after 2 t) from by
    unfold Dat.leavesExact; rw [live2 t], after_2]
  rw [show (dats m 0 c).leavesExact 3 t = owns (c : Thread nD τ) (mB1 t) fullShare ((dats m 0 c).after 3 t) from by
    unfold Dat.leavesExact; rw [live3 t], after_3]
  rw [show (dats m 0 c).leavesExact 4 t = owns (c : Thread nD τ) (mW2 t) fullShare ((dats m 0 c).after 4 t) from by
    unfold Dat.leavesExact; rw [live4 t], after_4]
  rw [show (dats m 0 c).leavesExact 5 t = owns (c : Thread nD τ) (mB2 t) fullShare ((dats m 0 c).after 5 t) from by
    unfold Dat.leavesExact; rw [live5 t], after_5]
  rw [show (dats m 0 c).leavesExact 6 t = owns (c : Thread nD τ) (mW3 t) fullShare ((dats m 0 c).after 6 t) from by
    unfold Dat.leavesExact; rw [live6 t], after_6]
  rw [show (dats m 0 c).leavesExact 7 t = owns (c : Thread nD τ) (mB3 t) fullShare ((dats m 0 c).after 7 t) from by
    unfold Dat.leavesExact; rw [live7 t], after_7]
  by_cases h1 : t.val < 25
  · rw [Dat.leavesExact_idle (dats m 0 c) 8 t (idle8 t h1) (noFlush8 t h1), Dat.leavesExact_idle (dats m 0 c) 9 t (idle9 t h1) (noFlush9 t h1)]
    by_cases hz : t.val = 0
    · obtain rfl : t = p0 := Fin.ext hz
      rw [Inv_castSucc m c p0, Inv_zero m c _ _ (show p0.val = 0 from rfl), scopedAtEntry]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords p0) _ _ _ _ _ _ _ _ _ _ _ _ _ _ _ _ _ _ _ _ _ _ _ _ ((atFirst_iff p0).mpr rfl) ((inLayer0_iff p0).mpr h1) (fun h => absurd ((inLayer1_iff p0).mp h) (by omega)) (iblk m c 0 p0) (iblk m c 1 p0) (iblk m c 2 p0) (iblk m c 3 p0) (iblk m c 4 p0) (iblk m c 5 p0) (iblk m c 6 p0) (iblk m c 7 p0) _ _ ds1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, HS1⟩
      isplitl [HS0 HS1 Hg]
      · isplitl [HS0 HS1]
        · isplitl [HS0]
          · unfold owns; iexists _; isplitr
            swap; · iexact HS0
            ipureintro
            exact read_written_whole _ _ zeros2 _ _ _ (runFirst_pieces1 c _ _ _ _ _ _ _ _ _ _ _ _ _ _ _ _ _ _ _ _ _ _ _ _ _ _ _ _ _ _ _ _ _ _ _ _ _ _ _)
          · iexists _; isplitl [HS1]
            · unfold owns; iexists _; isplitr
              swap; · iexact HS1
              ipureintro; rfl
            · ipureintro
              exact filled_of_store m c p0 h1 _ _ ds1 _ _ (runFirst_pieces2 c _ _ _ _ _ _ _ _ _ _ _ _ _ _ _ _ _ _ _ _ _ _ _ _ _ _ _ _ _ _ _ _ _ _ _ _ _ _ _) (fun h => absurd rfl h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [Inv_castSucc m c t, Inv_pos m c _ _ hz]
      iintro ⟨⟨⟨HS0, ⟨%ds1, HS1, %hds1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLayer0 c (grid0.coords t) _ _ _ _ _ _ _ _ _ _ _ _ _ _ _ _ _ _ _ _ _ _ _ _ (fun h => hz ((atFirst_iff t).mp h)) ((inLayer0_iff t).mpr h1) (fun h => absurd ((inLayer1_iff t).mp h) (by omega)) (iblk m c 0 t) (iblk m c 1 t) (iblk m c 2 t) (iblk m c 3 t) (iblk m c 4 t) (iblk m c 5 t) (iblk m c 6 t) (iblk m c 7 t) _ _ (support1 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          · iexists _; isplitl [HS1]
            · unfold owns; iexists _; isplitr
              swap; · iexact HS1
              ipureintro; rfl
            · ipureintro
              exact filled_of_store m c t h1 _ _ ds1 _ _ (runLayer0_pieces c _ _ _ _ _ _ _ _ _ _ _ _ _ _ _ _ _ _ _ _ _ _ _ _ _ _ _ _ _ _ _ _ _ _ _ _ _ _ _ _) (fun _ => hds1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have h2 : 25 ≤ t.val := Nat.le_of_not_lt h1
    have hz : t.val ≠ 0 := by omega
    rw [show (dats m 0 c).leavesExact 8 t = owns (c : Thread nD τ) (mEmb t) fullShare ((dats m 0 c).after 8 t) from by
      unfold Dat.leavesExact; rw [live8 t h2], after_8]
    rw [show (dats m 0 c).leavesExact 9 t = owns (c : Thread nD τ) (mScore t) fullShare ((dats m 0 c).after 9 t) from by
      unfold Dat.leavesExact; rw [live9 t h2], after_9]
    rw [Inv_castSucc m c t, Inv_pos m c _ _ hz]
    iintro ⟨⟨⟨HS0, ⟨%ds1, HS1, %hds1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl : ds1 = support2 m c := funext fun y => hds1 y (by have := ValueIdx.idx2_lt0 y; omega)
    iapply ((runLayer1 c (grid0.coords t) _ _ _ _ _ _ _ _ _ _ _ _ _ _ _ _ _ _ _ _ _ _ _ _ (fun h => hz ((atFirst_iff t).mp h)) (fun h => h1 ((inLayer0_iff t).mp h)) ((inLayer1_iff t).mpr h2) (iblk m c 0 t) (iblk m c 1 t) (iblk m c 2 t) (iblk m c 3 t) (iblk m c 4 t) (iblk m c 5 t) (iblk m c 6 t) (iblk m c 7 t) (support1 m c) (support2 m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, ⟨%e8, H8⟩, ⟨%e9, H9⟩, HS0, HS1⟩
    isplitl [HS0 HS1 Hg]
    · isplitl [HS0 HS1]
      · isplitl [HS0]
        · iexact HS0
        · iexists _; isplitl [HS1]
          · iexact HS1
          · ipureintro; exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact read_written_whole _ _ zeros2 _ _ _ (runLayer1_piecesEmb c _ _ _ _ _ _ _ _ _ _ _ _ _ _ _ _ _ _ _ _ _ _ _ _ _ _ _ _ _ _ _ _ _ _ _ _ _ _)
    unfold owns; iexists _; isplitr
    swap; · iexact H9
    ipureintro
    exact read_written_whole _ _ zeros2 _ _ _ (runLayer1_piecesScore c _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point the invariant gives back both scratches at some contents. -/
theorem Inv_out (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, scopedAtEntry]
  iintro ⟨⟨HS0, ⟨%d, HS1, -⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Inv_out m c _ (by rw [Fin.val_last]; have : cfg0.N = 50 := N_0; omega)

/-! ## The run and the frame -/

set_option backward.isDefEq.respectTransparency.types false in
/-- From any memory with zero counters every weakly fair execution of the program terminates, and every final state
    has every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.BodyIdeal.Shared.lean ====
/-
  The grid of the fused two-layer graph convolution has 50 points: layer 0 over 25 row blocks of the adjacency,
  then layer 1 over the same 25 blocks. The body branches three times on the point: at the very first point it
  forms the first support matrix x·W1 into the first scratch; at every point of layer 0 it stores 400 rows of the
  second support matrix into the second scratch; at every point of layer 1 it stores a block of the embedding and
  of the score. Here: those three conditions decided over the grid, the rows a layer-0 point stores, where the two
  output windows are idle and where they are written back, and the names of the memrefs the body is called with.
-/
import proofs.«154270_g52089363366198_cont_9to1_m_650_7_alg».proof.Proof.Gen.KernelIdeal.Frame
import proofs.«154270_g52089363366198_cont_9to1_m_650_7_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three branch conditions, decided over the grid -/

/-- The first branch: layer 0 and row block 0 together. -/
abbrev atFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The second branch: layer 0. -/
abbrev inLayer0 (i : grid0.Coords) : Prop := k0_cond2 i = 1#1
/-- It holds at the first 25 points. -/
theorem inLayer0_iff : ∀ t : Fin cfg0.N, inLayer0 (grid0.coords t) ↔ t.val < 25 :=
  (by decide +kernel : ∀ t : Fin grid0.N, inLayer0 (grid0.coords t) ↔ t.val < 25)

/-- The third branch: layer 1. -/
abbrev inLayer1 (i : grid0.Coords) : Prop := k0_cond3 i = 1#1
/-- It holds at the last 25 points. -/
theorem inLayer1_iff : ∀ t : Fin cfg0.N, inLayer1 (grid0.coords t) ↔ 25 ≤ t.val :=
  (by decide +kernel : ∀ t : Fin grid0.N, inLayer1 (grid0.coords t) ↔ 25 ≤ t.val)

/-- A layer-0 point `t` stores rows `400 t … 400 t + 399`, every column, of the second scratch. -/
theorem rowsOf_layer0 : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- In layer 0 the body stores nothing into the embedding's window, -/
theorem idle8 : ∀ t : Fin cfg0.N, t.val < 25 → cfg0.idle 8 (grid0.coords t) = true := by decide +kernel
/-- and the pipeline does not write its block back; -/
theorem noFlush8 : ∀ t : Fin cfg0.N, t.val < 25 → (cfg0.win 8).flush t = false := by decide +kernel
/-- in layer 1 it is live, -/
theorem live8 : ∀ t : Fin cfg0.N, 25 ≤ t.val → cfg0.idle 8 (grid0.coords t) = false := by decide +kernel
/-- and written back after every point. -/
theorem flush8 : ∀ t : Fin cfg0.N, 25 ≤ t.val → (cfg0.win 8).flush t = true := by decide +kernel
/-- The same for the score's window. -/
theorem idle9 : ∀ t : Fin cfg0.N, t.val < 25 → cfg0.idle 9 (grid0.coords t) = true := by decide +kernel
theorem noFlush9 : ∀ t : Fin cfg0.N, t.val < 25 → (cfg0.win 9).flush t = false := by decide +kernel
theorem live9 : ∀ t : Fin cfg0.N, 25 ≤ t.val → cfg0.idle 9 (grid0.coords t) = false := by decide +kernel
theorem flush9 : ∀ t : Fin cfg0.N, 25 ≤ t.val → (cfg0.win 9).flush t = true := by decide +kernel

/-! ## The memrefs the body is called with -/

abbrev mAdj (t : Fin cfg0.N) : Memref sig .tc .vmem S400x10000 .f32 := win0_0.stage (cfg0.slots t 0)
abbrev hAdj (t : Fin cfg0.N) : (mAdj t).IsWhole := hstage0_0 ((cfg0.slots t 0).cast nbuf0_0)
abbrev mX (t : Fin cfg0.N) : Memref sig .tc .vmem S10000x256 .bf16 := win0_1.stage (cfg0.slots t 1)
abbrev hX (t : Fin cfg0.N) : (mX t).IsWhole := hstage0_1 ((cfg0.slots t 1).cast nbuf0_1)
abbrev mW1 (t : Fin cfg0.N) : Memref sig .tc .vmem S256x256 .bf16 := win0_2.stage (cfg0.slots t 2)
abbrev hW1 (t : Fin cfg0.N) : (mW1 t).IsWhole := hstage0_2 ((cfg0.slots t 2).cast nbuf0_2)
abbrev mB1 (t : Fin cfg0.N) : Memref sig .tc .vmem S1x256 .f32 := win0_3.stage (cfg0.slots t 3)
abbrev hB1 (t : Fin cfg0.N) : (mB1 t).IsWhole := hstage0_3 ((cfg0.slots t 3).cast nbuf0_3)
abbrev mW2 (t : Fin cfg0.N) : Memref sig .tc .vmem S256x256 .bf16 := win0_4.stage (cfg0.slots t 4)
abbrev hW2 (t : Fin cfg0.N) : (mW2 t).IsWhole := hstage0_4 ((cfg0.slots t 4).cast nbuf0_4)
abbrev mB2 (t : Fin cfg0.N) : Memref sig .tc .vmem S1x256 .f32 := win0_5.stage (cfg0.slots t 5)
abbrev hB2 (t : Fin cfg0.N) : (mB2 t).IsWhole := hstage0_5 ((cfg0.slots t 5).cast nbuf0_5)
abbrev mW3 (t : Fin cfg0.N) : Memref sig .tc .vmem S1x256 .f32 := win0_6.stage (cfg0.slots t 6)
abbrev hW3 (t : Fin cfg0.N) : (mW3 t).IsWhole := hstage0_6 ((cfg0.slots t 6).cast nbuf0_6)
abbrev mB3 (t : Fin cfg0.N) : Memref sig .tc .vmem S1x1 .f32 := win0_7.stage (cfg0.slots t 7)
abbrev hB3 (t : Fin cfg0.N) : (mB3 t).IsWhole := hstage0_7 ((cfg0.slots t 7).cast nbuf0_7)
abbrev mEmb (t : Fin cfg0.N) : Memref sig .tc .vmem S400x256 .f32 := win0_8.stage (cfg0.slots t 8)
abbrev hEmb (t : Fin cfg0.N) : (mEmb t).IsWhole := hstage0_8 ((cfg0.slots t 8).cast nbuf0_8)
abbrev mScore (t : Fin cfg0.N) : Memref sig .tc .vmem S400x1 .f32 := win0_9.stage (cfg0.slots t 9)
abbrev hScore (t : Fin cfg0.N) : (mScore t).IsWhole := hstage0_9 ((cfg0.slots t 9).cast nbuf0_9)
/-- The two scratch operands: the first and the second support matrix. -/
abbrev mS1 : Memref sig .tc .vmem S10000x256 .bf16 := Memref.whole cc0_scratch0
abbrev mS2 : Memref sig .tc .vmem S10000x256 .bf16 := Memref.whole cc0_scratch1

/-- What the launch hands the region besides the windows: both scratch buffers at some contents and the generator
    register at some state. -/
theorem scopedAtEntry (c : Dev nD) :
    (Pipeline.ΦA spec0 c : sProp 𝕄)
      = iprop(iprop((∃ d, owns (c : Thread nD τ) mS1 fullShare d) ∗ (∃ d, owns (c : Thread nD τ) mS2 fullShare d)) ∗ (∃ r, prngReg c r)) := by
  unfold Pipeline.ΦA; rw [scopedRest0_eq]; simp only [mS1, mS2, owns_whole]; try rfl

end Cert.KernelIdeal.Body

end
-- ==== Proof.BodyIdeal.RunFirst.lean ====
/-
  The body at the grid's first point. It forms the first support matrix from the node features and the first
  weight matrix and stores it whole into the first scratch; then, as at every point of layer 0, it stores 400 rows
  of the second support matrix into the second scratch. The two output buffers are not touched. The run is stated
  with the stores it leaves in each scratch as lists of pieces that the run itself finds.
-/
import proofs.«154270_g52089363366198_cont_9to1_m_650_7_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the inputs' buffers and the two output buffers are handed back as they were; the first
    scratch, handed over at anything, comes back with the pieces `L.1` written; the second scratch, handed over at
    `xs1`, comes back as `xs1` with the pieces `L.2.1` written over it. -/
noncomputable def runFirst (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs1 : Vec F S10000x256 .bf16) :
    Σ' (LS0 : List (View.Piece (Elt F) S10000x256 .bf16)), { LS1 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexact HS1

end Cert.KernelIdeal.Body

end
-- ==== Proof.BodyIdeal.RunLayer0.lean ====
/-
  The body at a later point of layer 0. It multiplies the point's 400 rows of the adjacency with the first support
  matrix (read whole from the first scratch), adds the first bias, clamps at zero, multiplies with the second weight
  matrix and stores the 400 rows of the second support matrix into the second scratch at the point's rows. Nothing
  else is written.
-/
import proofs.«154270_g52089363366198_cont_9to1_m_650_7_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later layer-0 point's run: everything is handed back as it was except the second scratch, which comes back as
    `xs1` with the pieces the run finds written over it. -/
noncomputable def runLayer0 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs0 xs1 : Vec F S10000x256 .bf16) :
    { LS1 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    iexact HS1

end Cert.KernelIdeal.Body

end
-- ==== Proof.BodyIdeal.RunLayer1.lean ====
/-
  The body at a point of layer 1. It multiplies the point's 400 rows of the adjacency with the second support
  matrix (read whole from the second scratch), adds the second bias and clamps at zero: that is the block of the
  embedding, stored whole into the first output buffer; each row's product with the last weight row, summed, plus
  the last bias is the block of the score, stored whole into the second output buffer. The scratches are only read.
-/
import proofs.«154270_g52089363366198_cont_9to1_m_650_7_alg».proof.Proof.BodyIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A layer-1 point's run: the inputs and both scratches are handed back as they were; each output buffer, handed
    over at anything, comes back with the pieces the run finds written. -/
noncomputable def runLayer1 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : ¬inLayer0 i) (hc2 : inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (xs0 xs1 : Vec F S10000x256 .bf16) :
    Σ' (LE : List (View.Piece (Elt F) S400x256 .f32)), { LSc : List (View.Piece (Elt F) S400x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LE) ∗ (∃ f, arg11.view.loc (c : Thread nD τ) ↦[arg11.view.set]{fullShare} arg11.view.writes (Elt F) f LSc) ∗ owns (c : Thread nD τ) arg12 fullShare xs0 ∗ owns (c : Thread nD τ) arg13 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    iexists _; isplitr; · ipureintro; exact harg13.read_unread _
    iexact HS1

end Cert.KernelIdeal.Body

end
-- ==== Proof.BodyIdeal.Pieces.lean ====
/-
  What the three runs' stores are. Every load of the body goes through the whole of a buffer, so it reads the
  buffer's contents; hence each store's payload is the body's arithmetic applied to the contents the buffers were
  handed over with. A buffer stored whole reads back as the payload; a store of 400 rows is kept as one piece.
-/
import proofs.«154270_g52089363366198_cont_9to1_m_650_7_alg».proof.Proof.BodyIdeal.RunFirst
import proofs.«154270_g52089363366198_cont_9to1_m_650_7_alg».proof.Proof.BodyIdeal.RunLayer0
import proofs.«154270_g52089363366198_cont_9to1_m_650_7_alg».proof.Proof.BodyIdeal.RunLayer1
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle of a rank-two buffer are zero. -/
theorem zeros2 : (![0, 0] : Fin 2 → ℕ) = fun _ => 0 := funext fun a => by match a with | ⟨0, _⟩ => rfl | ⟨1, _⟩ => rfl

/-- A buffer written once, whole, reads back as what was written, whatever it held. -/
theorem read_written_whole {S : Shape} {e : EltTy} (M : Memref sig .tc .vmem S e) (f : M.view.ty.Contents (Elt F))
    {off : Fin S.rank → ℕ} (h : off = fun _ => 0) (inb : ∀ a, off a + S.size a ≤ S.size a) (w : S.Idx → Elt F e)
    (L : List (View.Piece (Elt F) S e)) (hL : L = [⟨Rect.unit off S.size inb, w⟩]) :
    M.view.read (Elt F) (M.view.writes (Elt F) f L) = w := by
  subst hL
  exact (View.read_writes_eq_canon M.view f _ (fun y => ⟨_, List.mem_singleton_self _, View.mem_set_unit_zero h inb y⟩)).trans
    (View.canon_unit_zero h inb w)

/-- The first point stores `x·W1` whole into the first scratch, -/
theorem runFirst_pieces1 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs1 : Vec F S10000x256 .bf16) :
    (runFirst c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs1).1
      = [⟨Rect.unit (s := S10000x256) ![0, 0] S10000x256.size inb_S10000x256_S10000x256_0_0, k0_pay1 x1 x2⟩] := by
  unfold runFirst; dsimp only
  sl_unfold_run_names
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

/-- and the first 400 rows of the second support matrix, computed from that product, into the second. -/
theorem runFirst_pieces2 (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs1 : Vec F S10000x256 .bf16) :
    (runFirst c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs1).2.1
      = [⟨Rect.unit (s := S10000x256) (k0_off1 i) S400x256.size (k0_off1_inb i hc1), k0_pay3 x0 (k0_pay1 x1 x2) x3 x4⟩] := by
  unfold runFirst; dsimp only
  sl_unfold_run_names
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2, View.readCov_unit_zero (S := S10000x256) arg12.view zeros2]

/-- A later layer-0 point stores its 400 rows of the second support matrix, computed from the first scratch. -/
theorem runLayer0_pieces (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : inLayer0 i) (hc2 : ¬inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (x8 : Vec F S400x256 .f32) (x9 : Vec F S400x1 .f32) (xs0 xs1 : Vec F S10000x256 .bf16) :
    (runLayer0 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xs0 xs1).1
      = [⟨Rect.unit (s := S10000x256) (k0_off1 i) S400x256.size (k0_off1_inb i hc1), k0_pay3 x0 xs0 x3 x4⟩] := by
  unfold runLayer0; dsimp only
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

/-- A layer-1 point stores the embedding's block whole, -/
theorem runLayer1_piecesEmb (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : ¬inLayer0 i) (hc2 : inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (xs0 xs1 : Vec F S10000x256 .bf16) :
    (runLayer1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1
      = [⟨Rect.unit (s := S400x256) ![0, 0] S400x256.size inb_S400x256_S400x256_0_0, k0_pay4 x0 xs1 x5⟩] := by
  unfold runLayer1; dsimp only
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

/-- and the score's block whole. -/
theorem runLayer1_piecesScore (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S256x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S400x256 .f32) (harg10 : arg10.IsWhole) (arg11 : Memref sig .tc .vmem S400x1 .f32) (harg11 : arg11.IsWhole) (arg12 : Memref sig .tc .vmem S10000x256 .bf16) (harg12 : arg12.IsWhole) (arg13 : Memref sig .tc .vmem S10000x256 .bf16) (harg13 : arg13.IsWhole) (hc0 : ¬atFirst i) (hc1 : ¬inLayer0 i) (hc2 : inLayer1 i)
    (x0 : Vec F S400x10000 .f32) (x1 : Vec F S10000x256 .bf16) (x2 : Vec F S256x256 .bf16) (x3 : Vec F S1x256 .f32) (x4 : Vec F S256x256 .bf16) (x5 : Vec F S1x256 .f32) (x6 : Vec F S1x256 .f32) (x7 : Vec F S1x1 .f32) (xs0 xs1 : Vec F S10000x256 .bf16) :
    (runLayer1 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).2.1
      = [⟨Rect.unit (s := S400x1) ![0, 0] S400x1.size inb_S400x1_S400x1_0_0, k0_pay5 x0 xs1 x5 x6 x7⟩] := by
  unfold runLayer1; dsimp only
  simp only [View.readAt_eq_ld, Memref.IsWhole.read_unread, View.ld_unit_zero (S := S400x10000) zeros2, View.ld_unit_zero (S := S10000x256) zeros2, View.ld_unit_zero (S := S1x256) zeros2, View.ld_unit_zero (S := S256x256) zeros2, View.ld_unit_zero (S := S1x1) zeros2, View.ld_unit_zero (S := S400x256) zeros2, View.ld_unit_zero (S := S400x1) zeros2]

end Cert.KernelIdeal.Body

end
-- ==== Proof.BodyIdeal.Frame.lean ====
/-
  The frame run of the fused two-layer graph convolution, with what every buffer holds named.

  Write `P = x·W1` for the first support matrix (formed once, at the first point, into the first scratch), and for a
  row block `t` of the adjacency write `R t` for the 400 rows `relu (adj_t · P + b1) · W2` of the second support
  matrix `Q`: the layer-0 point `t` stores `R t` at rows `400 t …` of the second scratch, so after the point `n` of
  layer 0 the rows below `400 (n + 1)` of that scratch are those of `Q`, and from the end of layer 0 on it holds `Q`
  whole. A layer-1 point `t` then leaves `relu (adj_t · Q + b2)` in the embedding's buffer and its rows' products
  with the last weight row, summed, plus the last bias in the score's buffer; both are written back after the point.
  In layer 0 the two output buffers are not touched and not written back.
-/
import proofs.«154270_g52089363366198_cont_9to1_m_650_7_alg».proof.Proof.BodyIdeal.Pieces
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The grid's first point. -/
def p0 : Fin cfg0.N := ⟨0, by have : cfg0.N = 50 := N_0; omega⟩

/-- The first support matrix, as the first point forms it from the features' and the first weights' blocks. -/
def support1 (c : Dev nD) : Vec F S10000x256 .bf16 := k0_pay1 (iblk m c 1 p0) (iblk m c 2 p0)

/-- The 400 rows of the second support matrix that the layer-0 point `t` forms from its rows of the adjacency. -/
def support2Rows (c : Dev nD) (t : Fin cfg0.N) : Vec F S400x256 .bf16 :=
  k0_pay3 (iblk m c 0 t) (support1 m c) (iblk m c 3 t) (iblk m c 4 t)

/-- The second support matrix: row `r` is row `r mod 400` of what the point `r / 400` forms. -/
def support2 (c : Dev nD) : Vec F S10000x256 .bf16 := fun y =>
  support2Rows m c ⟨(y 0).val / 400, by have := ValueIdx.idx2_lt0 y; have : cfg0.N = 50 := N_0; omega⟩
    (ValueIdx.ix2 (n0 := 400) (n1 := 256) ⟨(y 0).val % 400, Nat.mod_lt _ (by decide)⟩ ⟨(y 1).val, ValueIdx.idx2_lt1 y⟩)

/-- An entry of the second support matrix, read in the block of the point that forms it. -/
theorem support2_apply (c : Dev nD) (y : S10000x256.Idx) (t : Fin cfg0.N) (x : S400x256.Idx)
    (h0 : (y 0).val = 400 * t.val + (x 0).val) (h1 : (y 1).val = (x 1).val) :
    support2 m c y = support2Rows m c t x := by
  have hx0 := ValueIdx.idx2_lt0 x
  have ht : (⟨(y 0).val / 400, by have := ValueIdx.idx2_lt0 y; have : cfg0.N = 50 := N_0; omega⟩ : Fin cfg0.N) = t :=
    Fin.ext (by show (y 0).val / 400 = t.val; omega)
  unfold support2
  rw [ht]
  refine congrArg (support2Rows m c t) (funext fun a => Fin.ext ?_)
  match a with
  | ⟨0, _⟩ => show (y 0).val % 400 = (x 0).val; omega
  | ⟨1, _⟩ => exact h1

/-- The block of the embedding that the layer-1 point `t` forms, -/
def embBlock (c : Dev nD) (t : Fin cfg0.N) : Vec F S400x256 .f32 := k0_pay4 (iblk m c 0 t) (support2 m c) (iblk m c 5 t)

/-- and the block of the score. -/
def scoreBlock (c : Dev nD) (t : Fin cfg0.N) : Vec F S400x1 .f32 :=
  k0_pay5 (iblk m c 0 t) (support2 m c) (iblk m c 5 t) (iblk m c 6 t) (iblk m c 7 t)

/-- The rows below `400 (n + 1)` of `d` are those of the second support matrix. -/
def Filled (c : Dev nD) (n : ℕ) (d : Vec F S10000x256 .bf16) : Prop :=
  ∀ y : S10000x256.Idx, (y 0).val < 400 * (n + 1) → d y = support2 m c y

/-- Storing the point's 400 rows over contents whose earlier rows are already right makes the rows up to the point's
    last right: inside the stored rows the store's payload is read, at its local index; above them what was there. -/
theorem filled_of_store (c : Dev nD) (t : Fin cfg0.N) (ht : t.val < 25) (M : Memref sig .tc .vmem S10000x256 .bf16) (hM : M.IsWhole)
    (d : Vec F S10000x256 .bf16) (L : List (View.Piece (Elt F) S10000x256 .bf16))
    (inb : ∀ a, (k0_off1 (grid0.coords t)) a + S400x256.size a ≤ S10000x256.size a)
    (hL : L = [⟨Rect.unit (s := S10000x256) (k0_off1 (grid0.coords t)) S400x256.size inb, support2Rows m c t⟩])
    (hprev : t.val ≠ 0 → Filled m c (t.val - 1) d) :
    Filled m c t.val (M.view.read (Elt F) (M.view.writes (Elt F) (hM.unread d) L)) := by
  subst hL
  intro y hy
  by_cases hrow : 400 * t.val ≤ (y 0).val
  · have hy1 := ValueIdx.idx2_lt1 y
    rw [View.read_writes_cons_rows_of_mem M.view (hM.unread d) inb (support2Rows m c t) [] y
      (ValueIdx.ix2 (n0 := 400) (n1 := 256) ⟨(y 0).val - 400 * t.val, by omega⟩ ⟨(y 1).val, hy1⟩) (rowsOf_layer0 t ht)
      (by show (y 0).val = 400 * t.val + ((y 0).val - 400 * t.val); omega) rfl]
    exact (support2_apply m c y t _ (by show (y 0).val = 400 * t.val + ((y 0).val - 400 * t.val); omega) rfl).symm
  · have hpos : t.val ≠ 0 := fun h => hrow (by rw [h]; omega)
    rw [View.read_writes_cons_rows_of_not_mem M.view (hM.unread d) inb (support2Rows m c t) [] y (rowsOf_layer0 t ht) (W := 400) rfl
      (Or.inl (by omega))]
    show M.view.read (Elt F) (hM.unread d) y = _
    rw [hM.read_unread]
    exact hprev hpos y (by omega)

/-! ## The invariant between points, and the proof data -/

/-- Before the first point both scratches hold anything; after the point `n` the first holds the first support
    matrix and the second has its rows below `400 (n + 1)` right. The generator register is never used. -/
def Inv (c : Dev nD) : (n : ℕ) → n ≤ cfg0.N → sProp 𝕄
  | 0, _ => Pipeline.ΦA spec0 c
  | n + 1, _ => iprop(iprop(owns (c : Thread nD τ) mS1 fullShare (support1 m c) ∗ (∃ d, owns (c : Thread nD τ) mS2 fullShare d ∗ ⌜Filled m c n d⌝)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) mS1 fullShare (support1 m c) ∗ (∃ d, owns (c : Thread nD τ) mS2 fullShare d ∗ ⌜Filled m c n d⌝)) ∗ (∃ r, prngReg c r)) := rfl

theorem Inv_pos (c : Dev nD) (n : ℕ) (h : n ≤ cfg0.N) (hz : n ≠ 0) :
    Inv m c n h = iprop(iprop(owns (c : Thread nD τ) mS1 fullShare (support1 m c) ∗ (∃ d, owns (c : Thread nD τ) mS2 fullShare d ∗ ⌜Filled m c (n - 1) d⌝)) ∗ (∃ r, prngReg c r)) := by
  cases n with
  | zero => exact absurd rfl hz
  | succ n => rfl

/-- The proof data on core `c`: the arrays as the region finds them; after the body each input's buffer at its
    block, the embedding's at `embBlock`, the score's at `scoreBlock` (consulted at layer-1 points only: in layer 0
    the two are idle); the invariant `Inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => embBlock m c t
    | ⟨9, _⟩ => scoreBlock m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = embBlock m c t := by dsimp only [dats]
theorem after_9 (c : Dev nD) (t : Fin cfg0.N) : (dats m 0 c).after 9 t = scoreBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mAdj t) fullShare ((dats m 0 c).before 0 t d))
    ∗ (∃ d, owns (c : Thread nD τ) (mX t) fullShare ((dats m 0 c).before 1 t d))
    ∗ (∃ d, owns (c : Thread nD τ) (mW1 t) fullShare ((dats m 0 c).before 2 t d))
    ∗ (∃ d, owns (c : Thread nD τ) (mB1 t) fullShare ((dats m 0 c).before 3 t d))
    ∗ (∃ d, owns (c : Thread nD τ) (mW2 t) fullShare ((dats m 0 c).before 4 t d))
    ∗ (∃ d, owns (c : Thread nD τ) (mB2 t) fullShare ((dats m 0 c).before 5 t d))
    ∗ (∃ d, owns (c : Thread nD τ) (mW3 t) fullShare ((dats m 0 c).before 6 t d))
    ∗ (∃ d, owns (c : Thread nD τ) (mB3 t) fullShare ((dats m 0 c).before 7 t d))
    ∗ (∃ d, owns (c : Thread nD τ) (mEmb t) fullShare ((dats m 0 c).before 8 t d))
    ∗ (∃ d, owns (c : Thread nD τ) (mScore t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point: the inputs' buffers hold their blocks; the point's position says which of the three runs
    applies; the invariant hands the run the scratches and takes them back at the next point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Inv m c (t.val + 1) t.isLt from rfl, Inv_succ]
  have hN : t.val < 50 := lt_of_lt_of_eq t.isLt (show cfg0.N = 50 from N_0)
  rw [show (dats m 0 c).leavesExact 0 t = owns (c : Thread nD τ) (mAdj t) fullShare ((dats m 0 c).after 0 t) from by
    unfold Dat.leavesExact; rw [live0 t], after_0]
  rw [show (dats m 0 c).leavesExact 1 t = owns (c : Thread nD τ) (mX t) fullShare ((dats m 0 c).after 1 t) from by
    unfold Dat.leavesExact; rw [live1 t], after_1]
  rw [show (dats m 0 c).leavesExact 2 t = owns (c : Thread nD τ) (mW1 t) fullShare ((dats m 0 c).after 2 t) from by
    unfold Dat.leavesExact; rw [live2 t], after_2]
  rw [show (dats m 0 c).leavesExact 3 t = owns (c : Thread nD τ) (mB1 t) fullShare ((dats m 0 c).after 3 t) from by
    unfold Dat.leavesExact; rw [live3 t], after_3]
  rw [show (dats m 0 c).leavesExact 4 t = owns (c : Thread nD τ) (mW2 t) fullShare ((dats m 0 c).after 4 t) from by
    unfold Dat.leavesExact; rw [live4 t], after_4]
  rw [show (dats m 0 c).leavesExact 5 t = owns (c : Thread nD τ) (mB2 t) fullShare ((dats m 0 c).after 5 t) from by
    unfold Dat.leavesExact; rw [live5 t], after_5]
  rw [show (dats m 0 c).leavesExact 6 t = owns (c : Thread nD τ) (mW3 t) fullShare ((dats m 0 c).after 6 t) from by
    unfold Dat.leavesExact; rw [live6 t], after_6]
  rw [show (dats m 0 c).leavesExact 7 t = owns (c : Thread nD τ) (mB3 t) fullShare ((dats m 0 c).after 7 t) from by
    unfold Dat.leavesExact; rw [live7 t], after_7]
  by_cases h1 : t.val < 25
  · rw [Dat.leavesExact_idle (dats m 0 c) 8 t (idle8 t h1) (noFlush8 t h1), Dat.leavesExact_idle (dats m 0 c) 9 t (idle9 t h1) (noFlush9 t h1)]
    by_cases hz : t.val = 0
    · obtain rfl : t = p0 := Fin.ext hz
      rw [Inv_castSucc m c p0, Inv_zero m c _ _ (show p0.val = 0 from rfl), scopedAtEntry]
      iintro ⟨⟨⟨HS0, ⟨%ds1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords p0) _ _ _ _ _ _ _ _ _ _ _ _ _ _ _ _ _ _ _ _ _ _ _ _ ((atFirst_iff p0).mpr rfl) ((inLayer0_iff p0).mpr h1) (fun h => absurd ((inLayer1_iff p0).mp h) (by omega)) (iblk m c 0 p0) (iblk m c 1 p0) (iblk m c 2 p0) (iblk m c 3 p0) (iblk m c 4 p0) (iblk m c 5 p0) (iblk m c 6 p0) (iblk m c 7 p0) _ _ ds1).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, HS1⟩
      isplitl [HS0 HS1 Hg]
      · isplitl [HS0 HS1]
        · isplitl [HS0]
          · unfold owns; iexists _; isplitr
            swap; · iexact HS0
            ipureintro
            exact read_written_whole _ _ zeros2 _ _ _ (runFirst_pieces1 c _ _ _ _ _ _ _ _ _ _ _ _ _ _ _ _ _ _ _ _ _ _ _ _ _ _ _ _ _ _ _ _ _ _ _ _ _ _ _)
          · iexists _; isplitl [HS1]
            · unfold owns; iexists _; isplitr
              swap; · iexact HS1
              ipureintro; rfl
            · ipureintro
              exact filled_of_store m c p0 h1 _ _ ds1 _ _ (runFirst_pieces2 c _ _ _ _ _ _ _ _ _ _ _ _ _ _ _ _ _ _ _ _ _ _ _ _ _ _ _ _ _ _ _ _ _ _ _ _ _ _ _) (fun h => absurd rfl h)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [Inv_castSucc m c t, Inv_pos m c _ _ hz]
      iintro ⟨⟨⟨HS0, ⟨%ds1, HS1, %hds1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLayer0 c (grid0.coords t) _ _ _ _ _ _ _ _ _ _ _ _ _ _ _ _ _ _ _ _ _ _ _ _ (fun h => hz ((atFirst_iff t).mp h)) ((inLayer0_iff t).mpr h1) (fun h => absurd ((inLayer1_iff t).mp h) (by omega)) (iblk m c 0 t) (iblk m c 1 t) (iblk m c 2 t) (iblk m c 3 t) (iblk m c 4 t) (iblk m c 5 t) (iblk m c 6 t) (iblk m c 7 t) _ _ (support1 m c) ds1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          · iexists _; isplitl [HS1]
            · unfold owns; iexists _; isplitr
              swap; · iexact HS1
              ipureintro; rfl
            · ipureintro
              exact filled_of_store m c t h1 _ _ ds1 _ _ (runLayer0_pieces c _ _ _ _ _ _ _ _ _ _ _ _ _ _ _ _ _ _ _ _ _ _ _ _ _ _ _ _ _ _ _ _ _ _ _ _ _ _ _ _) (fun _ => hds1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have h2 : 25 ≤ t.val := Nat.le_of_not_lt h1
    have hz : t.val ≠ 0 := by omega
    rw [show (dats m 0 c).leavesExact 8 t = owns (c : Thread nD τ) (mEmb t) fullShare ((dats m 0 c).after 8 t) from by
      unfold Dat.leavesExact; rw [live8 t h2], after_8]
    rw [show (dats m 0 c).leavesExact 9 t = owns (c : Thread nD τ) (mScore t) fullShare ((dats m 0 c).after 9 t) from by
      unfold Dat.leavesExact; rw [live9 t h2], after_9]
    rw [Inv_castSucc m c t, Inv_pos m c _ _ hz]
    iintro ⟨⟨⟨HS0, ⟨%ds1, HS1, %hds1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl : ds1 = support2 m c := funext fun y => hds1 y (by have := ValueIdx.idx2_lt0 y; omega)
    iapply ((runLayer1 c (grid0.coords t) _ _ _ _ _ _ _ _ _ _ _ _ _ _ _ _ _ _ _ _ _ _ _ _ (fun h => hz ((atFirst_iff t).mp h)) (fun h => h1 ((inLayer0_iff t).mp h)) ((inLayer1_iff t).mpr h2) (iblk m c 0 t) (iblk m c 1 t) (iblk m c 2 t) (iblk m c 3 t) (iblk m c 4 t) (iblk m c 5 t) (iblk m c 6 t) (iblk m c 7 t) (support1 m c) (support2 m c)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, ⟨%e8, H8⟩, ⟨%e9, H9⟩, HS0, HS1⟩
    isplitl [HS0 HS1 Hg]
    · isplitl [HS0 HS1]
      · isplitl [HS0]
        · iexact HS0
        · iexists _; isplitl [HS1]
          · iexact HS1
          · ipureintro; exact fun y _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact read_written_whole _ _ zeros2 _ _ _ (runLayer1_piecesEmb c _ _ _ _ _ _ _ _ _ _ _ _ _ _ _ _ _ _ _ _ _ _ _ _ _ _ _ _ _ _ _ _ _ _ _ _ _ _)
    unfold owns; iexists _; isplitr
    swap; · iexact H9
    ipureintro
    exact read_written_whole _ _ zeros2 _ _ _ (runLayer1_piecesScore c _ _ _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- After any point the invariant gives back both scratches at some contents. -/
theorem Inv_out (c : Dev nD) (t : Fin (cfg0.N + 1)) (ht : t.val ≠ 0) : (dats m 0 c).Φ t ⊢ Pipeline.ΦA spec0 c := by
  rw [show (dats m 0 c).Φ t = Inv m c t.val (Nat.le_of_lt_succ t.isLt) from rfl, Inv_pos m c _ _ ht, scopedAtEntry]
  iintro ⟨⟨HS0, ⟨%d, HS1, -⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Inv_out m c _ (by rw [Fin.val_last]; have : cfg0.N = 50 := N_0; omega)

/-! ## The run and the frame -/

set_option backward.isDefEq.respectTransparency.types false in
/-- From any memory with zero counters every weakly fair execution of the program terminates, and every final state
    has every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«154270_g52089363366198_cont_9to1_m_650_7_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«154270_g52089363366198_cont_9to1_m_650_7_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«154270_g52089363366198_cont_9to1_m_650_7_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.Spec.lean ====
/-
  The two-layer graph convolution with a score head, over the extended reals, as whole-array functions at any
  number of rows of the adjacency:
    P = X · W1,   Q = relu (A · P + b1) · W2,   E = relu (A · Q + b2),   s = E · W3ᵀ + b3.
  A row of Q, of E and of s depends on the same row of A (and of E) only, so the rows a block of A produces are the
  rows of the whole result at the block's place.
-/
import proofs.«154270_g52089363366198_cont_9to1_m_650_7_alg».proof.Proof.LibTransposed

noncomputable section

namespace Cert.GcnSpec

open Idealize.ShloMosaic Idealize.ShloMosaic.ValueIdx Cert.LayoutLib Cert.DenseLib Cert.RowBlocks Cert.TransposedLib

/-- An `[a, b]` array of extended reals. -/
abbrev Mat (a b : ℕ) : Type := (⟨2, ![a, b]⟩ : Shape).Idx → EReal

/-- The first support matrix `X · W1`. -/
def support1 (X : Mat 10000 256) (W1 : Mat 256 256) : Mat 10000 256 := mm X W1

/-- The rows `relu (A · P + b1) · W2` of the second support matrix that the rows `A` of the adjacency give. -/
def support2 {M : ℕ} (A : Mat M 10000) (P : Mat 10000 256) (b1 : Fin 256 → EReal) (W2 : Mat 256 256) : Mat M 256 :=
  layer (mm A P) b1 W2

/-- The rows `relu (A · Q + b2)` of the embedding. -/
def embedding {M : ℕ} (A : Mat M 10000) (Q : Mat 10000 256) (b2 : Fin 256 → EReal) : Mat M 256 :=
  relu (biased (mm A Q) b2)

/-- The rows `E · W3ᵀ + b3` of the score. -/
def score {M : ℕ} (E : Mat M 256) (W3 : Mat 1 256) (b3 : Fin 1 → EReal) : Mat M 1 := affine E (tr W3) b3

/-- Rows of the second support matrix from equal rows of the adjacency are equal. -/
theorem support2_of_row {M M' : ℕ} (A' : Mat M' 10000) (A : Mat M 10000) (P : Mat 10000 256) (b1 : Fin 256 → EReal) (W2 : Mat 256 256)
    (j : (⟨2, ![M', 256]⟩ : Shape).Idx) (i : (⟨2, ![M, 256]⟩ : Shape).Idx) (hq : (j 1).val = (i 1).val)
    (hA : ∀ k : Fin 10000, A' (ix2 (n0 := M') (j 0) k) = A (ix2 (n0 := M) (i 0) k)) :
    support2 A' P b1 W2 j = support2 A P b1 W2 i :=
  layer_eq_of_row (mm A' P) b1 W2 (mm A P) b1 W2 j i rfl rfl hq fun k =>
    mm_eq_of_row A' P A P (ix2 (n0 := M') (j 0) k) (ix2 (n0 := M) (i 0) k) rfl rfl hA

/-- Rows of the embedding from equal rows of the adjacency are equal. -/
theorem embedding_of_row {M M' : ℕ} (A' : Mat M' 10000) (A : Mat M 10000) (Q : Mat 10000 256) (b2 : Fin 256 → EReal)
    (j : (⟨2, ![M', 256]⟩ : Shape).Idx) (i : (⟨2, ![M, 256]⟩ : Shape).Idx) (hq : (j 1).val = (i 1).val)
    (hA : ∀ k : Fin 10000, A' (ix2 (n0 := M') (j 0) k) = A (ix2 (n0 := M) (i 0) k)) :
    embedding A' Q b2 j = embedding A Q b2 i :=
  congrArg (fun v : EReal => max v 0) (biased_eq_of_entry (mm A' Q) b2 (mm A Q) b2 j i rfl hq (mm_eq_of_row A' Q A Q j i rfl hq hA))

/-- Rows of the score from equal rows of the embedding are equal. -/
theorem score_of_row {M M' : ℕ} (E' : Mat M' 256) (E : Mat M 256) (W3 : Mat 1 256) (b3 : Fin 1 → EReal)
    (j : (⟨2, ![M', 1]⟩ : Shape).Idx) (i : (⟨2, ![M, 1]⟩ : Shape).Idx) (hq : (j 1).val = (i 1).val)
    (hE : ∀ k : Fin 256, E' (ix2 (n0 := M') (j 0) k) = E (ix2 (n0 := M) (i 0) k)) :
    score E' W3 b3 j = score E W3 b3 i :=
  affine_eq_of_row E' (tr W3) b3 E (tr W3) b3 j i rfl rfl hq hE

end Cert.GcnSpec

end
-- ==== Proof.KernelPayloads.lean ====
/-
  The body's arithmetic over the extended reals. A change of float format is the identity there, a product
  accumulated into zero is the matrix product, a one-row array broadcast down the rows is the bias laid along every
  row, a maximum against zero is the cut at zero, and a lane sum of products with a broadcast row is the product with
  that row read as a column. So the four things the body stores are the specification's first support matrix, the
  rows of the second support matrix, of the embedding and of the score that the loaded rows of the adjacency give.
-/
import proofs.«154270_g52089363366198_cont_9to1_m_650_7_alg».proof.Proof.Gen.KernelIdeal.Skeleton
import proofs.«154270_g52089363366198_cont_9to1_m_650_7_alg».proof.Proof.Spec

noncomputable section

namespace Cert.KernelIdeal.Result

open Cert.KernelIdeal Cert.KernelIdeal.Gen
open Idealize.ShloMosaic Idealize.ShloMosaic.ValueIdx Cert.LayoutLib Cert.DenseLib Cert.RowBlocks Cert.TransposedLib Cert.GcnSpec

theorem dotXW : dot_S10000x256_S256x256_S10000x256_1_0_0_1_n_n = DotDims.plain 10000 256 256 := rfl
theorem dotAP : dot_S400x10000_S10000x256_S400x256_1_0_0_1_n_n = DotDims.plain 400 10000 256 := rfl
theorem dotHW : dot_S400x256_S256x256_S400x256_1_0_0_1_n_n = DotDims.plain 400 256 256 := rfl

/-- What the first point stores is the first support matrix. -/
theorem pay1_eq (xb : FVec Ideal S10000x256 .bf16) (w1 : FVec Ideal S256x256 .bf16) : k0_pay1 (F := Ideal) xb w1 = support1 xb w1 := by
  unfold k0_pay1; dsimp only
  rw [shapeCast_self, shapeCast_self, shapeCast_self]
  exact matmul_eq_mm _ dotXW xb w1

/-- What a layer-0 point stores is the rows of the second support matrix its rows of the adjacency give. -/
theorem pay3_eq (a : FVec Ideal S400x10000 .f32) (P : FVec Ideal S10000x256 .bf16) (b1r : FVec Ideal S1x256 .f32)
    (w2 : FVec Ideal S256x256 .bf16) :
    k0_pay3 (F := Ideal) a P b1r w2 = support2 (M := 400) a P (fun c => b1r (ix2 (0 : Fin 1) c)) w2 := by
  unfold k0_pay3 k0_pay2; dsimp only
  rw [shapeCast_self, shapeCast_self, shapeCast_self]
  have e1 : matmul dot_S400x10000_S10000x256_S400x256_1_0_0_1_n_n none (truncf .bf16 a bitsLt_bf16_f32) P (constant S400x256 .f32 0x00000000#32) = mm a P :=
    matmul_eq_mm _ dotAP a P
  rw [e1, broadcastTo_eq_rows, maximumf_splat_zero]
  exact matmul_eq_mm _ dotHW _ w2

/-- What a layer-1 point stores into the first output is the rows of the embedding. -/
theorem pay4_eq (a : FVec Ideal S400x10000 .f32) (Q : FVec Ideal S10000x256 .bf16) (b2r : FVec Ideal S1x256 .f32) :
    k0_pay4 (F := Ideal) a Q b2r = embedding (M := 400) a Q (fun c => b2r (ix2 (0 : Fin 1) c)) := by
  unfold k0_pay4 k0_pay2; dsimp only
  rw [shapeCast_self]
  have e1 : matmul dot_S400x10000_S10000x256_S400x256_1_0_0_1_n_n none (truncf .bf16 a bitsLt_bf16_f32) Q (constant S400x256 .f32 0x00000000#32) = mm a Q :=
    matmul_eq_mm _ dotAP a Q
  rw [e1, broadcastTo_eq_rows, maximumf_splat_zero]
  rfl

/-- A lane sum of a `[400, 256]` array at row `p` is the sum of the row's entries. -/
theorem laneSum_apply (Y : FVec Ideal S400x256 .f32) (hφ : FKind.Formats FTy.f32)
    (hacc : (0x00000000#32 : BitVec FTy.f32.bits) = FKind.add.neutral FTy.f32 hφ) (p : Fin 400) :
    multiReduction .add [1] S400 Y 0x00000000#32 reduces_S400x256_S400 hφ hacc (ix1 p) = ∑ k : Fin 256, Y (ix2 p k) :=
  (Ideal.multiReduction_add_single Y 0x00000000#32 reduces_S400x256_S400 hφ hacc (ix1 p)).trans
    (Finset.sum_congr rfl fun k _ => congrArg Y (lift_row reduces_S400x256_S400 p k))

/-- What a layer-1 point stores into the second output is the rows of the score of its rows of the embedding. -/
theorem pay5_eq (a : FVec Ideal S400x10000 .f32) (Q : FVec Ideal S10000x256 .bf16) (b2r w3 : FVec Ideal S1x256 .f32)
    (b3r : FVec Ideal S1x1 .f32) :
    k0_pay5 (F := Ideal) a Q b2r w3 b3r = score (M := 400) (k0_pay4 (F := Ideal) a Q b2r) w3 (fun c => b3r (ix2 (0 : Fin 1) c)) := by
  funext j
  obtain ⟨p, u, rfl⟩ : ∃ (p : Fin 400) (u : Fin 1), j = ix2 p u := ⟨j 0, j 1, eq_ix2 j⟩
  obtain rfl : u = 0 := Subsingleton.elim _ _
  unfold k0_pay5; dsimp only
  show (shapeCast S400x1 _ shapeCasts_S400_S400x1) (ix2 p (0 : Fin 1)) + (broadcastTo S400x1 _ broadcasts_S1x1_S400x1) (ix2 p (0 : Fin 1)) = _
  rw [shapeCast_col_apply, broadcastTo_1b_ab_apply, shapeCast_self]
  refine congrArg (· + b3r (ix2 (0 : Fin 1) (0 : Fin 1))) ?_
  refine (laneSum_apply _ _ _ p).trans ?_
  refine Finset.sum_congr rfl fun k _ => ?_
  show k0_pay4 (F := Ideal) a Q b2r (ix2 p k) * (broadcastTo S400x256 w3 broadcasts_S1x256_S400x256) (ix2 p k) = _
  rw [broadcastTo_1b_ab_apply]
  rfl

end Cert.KernelIdeal.Result

end
-- ==== Proof.KernelValue.lean ====
/-
  The two arrays the fused kernel leaves, over the extended reals, as functions of its arguments.

  Every input window but the adjacency's holds its whole array at every point, and the narrowing of the features and
  of the two weight matrices, like the recasting of the three bias vectors as one-row arrays, changes no value. The
  adjacency's window at the point `t` holds the rows `400 (t mod 25) …` of the adjacency. So the first scratch holds
  the specification's first support matrix; the rows the layer-0 point `t` stores are rows `400 t …` of the
  specification's second support matrix, because a row of it depends on the same row of the adjacency only; and the
  blocks a layer-1 point leaves are the rows `400 (t - 25) …` of the embedding and of the score, for the same reason.
  The 25 blocks written back tile each output array.
-/
import proofs.«154270_g52089363366198_cont_9to1_m_650_7_alg».proof.Proof.BodyIdeal.Frame
import proofs.«154270_g52089363366198_cont_9to1_m_650_7_alg».proof.Proof.KernelPayloads
import Idealize.ShloMosaic.Lib.StableHlo.Run
import Idealize.ShloMosaic.Lib.Pipeline.Value

set_option maxRecDepth 16384

noncomputable section

namespace Cert.KernelIdeal.Result

open Cert.KernelIdeal Cert.KernelIdeal.Gen Cert.KernelIdeal.Body
open Idealize.ShloMosaic Idealize.ShloMosaic.TcCoe Idealize.SL.Sem Idealize.ShloMosaic.StableHlo
open Idealize.ShloMosaic.ValueIdx Cert.LayoutLib Cert.DenseLib Cert.RowBlocks Cert.TransposedLib Cert.GcnSpec
open Idealize.ShloMosaic.Pipeline (Dat)

variable (m : (ℓ : Loc nD τ sig) → Buf (Elt Ideal) ℓ) (ρ : Dev nD → PrngReg)

/-! ## The arguments, and the specification's stages of them -/

def aX (c : Dev nD) : Mat 10000 256 := m ((c.tc : Thread nD τ).loc main_arg0)
def aAdj (c : Dev nD) : Mat 10000 10000 := m ((c.tc : Thread nD τ).loc main_arg1)
def aW1 (c : Dev nD) : Mat 256 256 := m ((c.tc : Thread nD τ).loc main_arg2)
def aB1 (c : Dev nD) : Fin 256 → EReal := fun k => m ((c.tc : Thread nD τ).loc main_arg3) (ix1 k)
def aW2 (c : Dev nD) : Mat 256 256 := m ((c.tc : Thread nD τ).loc main_arg4)
def aB2 (c : Dev nD) : Fin 256 → EReal := fun k => m ((c.tc : Thread nD τ).loc main_arg5) (ix1 k)
def aW3 (c : Dev nD) : Mat 1 256 := m ((c.tc : Thread nD τ).loc main_arg6)
def aB3 (c : Dev nD) : Fin 1 → EReal := fun k => m ((c.tc : Thread nD τ).loc main_arg7) (ix1 k)

/-- The first support matrix, -/
def P (c : Dev nD) : Mat 10000 256 := support1 (aX m c) (aW1 m c)
/-- the second, -/
def Q (c : Dev nD) : Mat 10000 256 := support2 (aAdj m c) (P m c) (aB1 m c) (aW2 m c)
/-- the embedding -/
def E (c : Dev nD) : Mat 10000 256 := embedding (aAdj m c) (Q m c) (aB2 m c)
/-- and the score. -/
def S (c : Dev nD) : Mat 10000 1 := score (E m c) (aW3 m c) (aB3 m c)

/-! ## The arrays the region finds -/

theorem entry_x (c : Dev nD) : (V m c main_v0 : S10000x256.Idx → EReal) = aX m c := by
  dsimp only [Gen.V, Gen.hostOps0]; after_results; rfl
theorem entry_w1 (c : Dev nD) : (V m c main_v1 : S256x256.Idx → EReal) = aW1 m c := by
  dsimp only [Gen.V, Gen.hostOps0]; after_results; rfl
theorem entry_w2 (c : Dev nD) : (V m c main_v2 : S256x256.Idx → EReal) = aW2 m c := by
  dsimp only [Gen.V, Gen.hostOps0]; after_results; rfl
theorem entry_b1 (c : Dev nD) : (V m c main_v3 : S1x256.Idx → EReal) = shapeCast S1x256 (m ((c.tc : Thread nD τ).loc main_arg3)) shapeCasts_S256_S1x256 := by
  dsimp only [Gen.V, Gen.hostOps0]; after_results; rfl
theorem entry_b2 (c : Dev nD) : (V m c main_v4 : S1x256.Idx → EReal) = shapeCast S1x256 (m ((c.tc : Thread nD τ).loc main_arg5)) shapeCasts_S256_S1x256 := by
  dsimp only [Gen.V, Gen.hostOps0]; after_results; rfl
theorem entry_b3 (c : Dev nD) : (V m c main_v5 : S1x1.Idx → EReal) = shapeCast S1x1 (m ((c.tc : Thread nD τ).loc main_arg7)) shapeCasts_S1_S1x1 := by
  dsimp only [Gen.V, Gen.hostOps0]; after_results; rfl

/-! ## The windows' blocks -/

/-- The printed index maps, decided over the grid: the adjacency's block moves with the row block of either layer,
    every other input's stays at the origin, and in layer 1 each output's block is the row block. -/
theorem idx_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ (25 ≤ t.val → win0_8.index t (0 : Fin 2) = t.val - 25) ∧ win0_8.index t (1 : Fin 2) = 0
    ∧ (25 ≤ t.val → win0_9.index t (0 : Fin 2) = t.val - 25) ∧ win0_9.index t (1 : Fin 2) = 0 :=
  (by decide +kernel : ∀ t : Fin grid0.N, _)

theorem blk_x (c : Dev nD) (t : Fin cfg0.N) : (iblk m c 1 t : S10000x256.Idx → EReal) = aX m c := by
  funext y
  show V m c main_v0 (((cfg0.win 1).blk t).view.emb y) = _
  have h : ((cfg0.win 1).blk t).view.emb y = y := by
    obtain ⟨-, -, e0, e1, -⟩ := idx_facts t
    funext a; apply Fin.ext
    match a with
    | ⟨0, _⟩ => show win0_1.index t (0 : Fin 2) * 10000 + 1 * (y 0).val = (y 0).val; omega
    | ⟨1, _⟩ => show win0_1.index t (1 : Fin 2) * 256 + 1 * (y 1).val = (y 1).val; omega
  rw [h, entry_x]

theorem blk_w1 (c : Dev nD) (t : Fin cfg0.N) : (iblk m c 2 t : S256x256.Idx → EReal) = aW1 m c := by
  funext y
  show V m c main_v1 (((cfg0.win 2).blk t).view.emb y) = _
  have h : ((cfg0.win 2).blk t).view.emb y = y := by
    obtain ⟨-, -, -, -, e0, e1, -⟩ := idx_facts t
    funext a; apply Fin.ext
    match a with
    | ⟨0, _⟩ => show win0_2.index t (0 : Fin 2) * 256 + 1 * (y 0).val = (y 0).val; omega
    | ⟨1, _⟩ => show win0_2.index t (1 : Fin 2) * 256 + 1 * (y 1).val = (y 1).val; omega
  rw [h, entry_w1]

theorem blk_b1 (c : Dev nD) (t : Fin cfg0.N) (k : Fin 256) : (iblk m c 3 t : S1x256.Idx → EReal) (ix2 (0 : Fin 1) k) = aB1 m c k := by
  show V m c main_v3 (((cfg0.win 3).blk t).view.emb (ix2 (0 : Fin 1) k)) = _
  have h : ((cfg0.win 3).blk t).view.emb (ix2 (0 : Fin 1) k) = ix2 (0 : Fin 1) k := by
    obtain ⟨-, -, -, -, -, -, e0, e1, -⟩ := idx_facts t
    funext a; apply Fin.ext
    match a with
    | ⟨0, _⟩ => show win0_3.index t (0 : Fin 2) * 1 + 1 * 0 = 0; omega
    | ⟨1, _⟩ => show win0_3.index t (1 : Fin 2) * 256 + 1 * k.val = k.val; omega
  rw [h, entry_b1]
  exact shapeCast_vecRow_apply _ _ (0 : Fin 1) k

theorem blk_w2 (c : Dev nD) (t : Fin cfg0.N) : (iblk m c 4 t : S256x256.Idx → EReal) = aW2 m c := by
  funext y
  show V m c main_v2 (((cfg0.win 4).blk t).view.emb y) = _
  have h : ((cfg0.win 4).blk t).view.emb y = y := by
    obtain ⟨-, -, -, -, -, -, -, -, e0, e1, -⟩ := idx_facts t
    funext a; apply Fin.ext
    match a with
    | ⟨0, _⟩ => show win0_4.index t (0 : Fin 2) * 256 + 1 * (y 0).val = (y 0).val; omega
    | ⟨1, _⟩ => show win0_4.index t (1 : Fin 2) * 256 + 1 * (y 1).val = (y 1).val; omega
  rw [h, entry_w2]

theorem blk_b2 (c : Dev nD) (t : Fin cfg0.N) (k : Fin 256) : (iblk m c 5 t : S1x256.Idx → EReal) (ix2 (0 : Fin 1) k) = aB2 m c k := by
  show V m c main_v4 (((cfg0.win 5).blk t).view.emb (ix2 (0 : Fin 1) k)) = _
  have h : ((cfg0.win 5).blk t).view.emb (ix2 (0 : Fin 1) k) = ix2 (0 : Fin 1) k := by
    obtain ⟨-, -, -, -, -, -, -, -, -, -, e0, e1, -⟩ := idx_facts t
    funext a; apply Fin.ext
    match a with
    | ⟨0, _⟩ => show win0_5.index t (0 : Fin 2) * 1 + 1 * 0 = 0; omega
    | ⟨1, _⟩ => show win0_5.index t (1 : Fin 2) * 256 + 1 * k.val = k.val; omega
  rw [h, entry_b2]
  exact shapeCast_vecRow_apply _ _ (0 : Fin 1) k

theorem blk_w3 (c : Dev nD) (t : Fin cfg0.N) : (iblk m c 6 t : S1x256.Idx → EReal) = aW3 m c := by
  funext y
  show V m c main_arg6 (((cfg0.win 6).blk t).view.emb y) = _
  have h : ((cfg0.win 6).blk t).view.emb y = y := by
    obtain ⟨-, -, -, -, -, -, -, -, -, -, -, -, e0, e1, -⟩ := idx_facts t
    funext a; apply Fin.ext
    match a with
    | ⟨0, _⟩ => show win0_6.index t (0 : Fin 2) * 1 + 1 * (y 0).val = (y 0).val; omega
    | ⟨1, _⟩ => show win0_6.index t (1 : Fin 2) * 256 + 1 * (y 1).val = (y 1).val; omega
  rw [h, V_main_arg6]; rfl

theorem blk_b3 (c : Dev nD) (t : Fin cfg0.N) (k : Fin 1) : (iblk m c 7 t : S1x1.Idx → EReal) (ix2 (0 : Fin 1) k) = aB3 m c k := by
  show V m c main_v5 (((cfg0.win 7).blk t).view.emb (ix2 (0 : Fin 1) k)) = _
  have h : ((cfg0.win 7).blk t).view.emb (ix2 (0 : Fin 1) k) = ix2 (0 : Fin 1) k := by
    obtain ⟨-, -, -, -, -, -, -, -, -, -, -, -, -, -, e0, e1, -⟩ := idx_facts t
    funext a; apply Fin.ext
    match a with
    | ⟨0, _⟩ => show win0_7.index t (0 : Fin 2) * 1 + 1 * 0 = 0; omega
    | ⟨1, _⟩ => show win0_7.index t (1 : Fin 2) * 1 + 1 * k.val = k.val; omega
  rw [h, entry_b3]
  exact shapeCast_vecRow_apply _ _ (0 : Fin 1) k

/-- Row `p` of the adjacency's block at the point `t` is row `400 (t mod 25) + p` of the adjacency. -/
theorem adj_row (c : Dev nD) (t : Fin cfg0.N) (p : Fin 400) (r : Fin 10000) (hr : r.val = 400 * (t.val % 25) + p.val) (k : Fin 10000) :
    (iblk m c 0 t : S400x10000.Idx → EReal) (ix2 p k) = aAdj m c (ix2 r k) := by
  show V m c main_arg1 (((cfg0.win 0).blk t).view.emb (ix2 p k)) = _
  have h : ((cfg0.win 0).blk t).view.emb (ix2 p k) = ix2 r k := by
    obtain ⟨e0, e1, -⟩ := idx_facts t
    funext a; apply Fin.ext
    match a with
    | ⟨0, _⟩ => show win0_0.index t (0 : Fin 2) * 400 + 1 * p.val = r.val; omega
    | ⟨1, _⟩ => show win0_0.index t (1 : Fin 2) * 10000 + 1 * k.val = k.val; omega
  rw [h, V_main_arg1]; rfl

/-! ## What the scratches and the output buffers hold -/

theorem support1_eq (c : Dev nD) : Body.support1 m c = P m c :=
  (pay1_eq (iblk m c 1 p0) (iblk m c 2 p0)).trans (congrArg₂ support1 (blk_x m c p0) (blk_w1 m c p0))

theorem support2Rows_eq (c : Dev nD) (t : Fin cfg0.N) :
    Body.support2Rows m c t = support2 (M := 400) (iblk m c 0 t) (P m c) (aB1 m c) (aW2 m c) := by
  refine (pay3_eq (iblk m c 0 t) (Body.support1 m c) (iblk m c 3 t) (iblk m c 4 t)).trans ?_
  rw [support1_eq, blk_w2]
  exact congrArg (fun b => support2 (M := 400) (iblk m c 0 t) (P m c) b (aW2 m c)) (funext fun k => blk_b1 m c t k)

/-- The second scratch's contents are the second support matrix. -/
theorem support2_eq (c : Dev nD) : Body.support2 m c = Q m c := by
  funext y
  have hy0 := idx2_lt0 y
  unfold Body.support2
  rw [support2Rows_eq]
  refine support2_of_row (M' := 400) (M := 10000) (iblk m c 0 _) (aAdj m c) (P m c) (aB1 m c) (aW2 m c) _ y rfl fun k => ?_
  exact adj_row m c _ _ (y 0) (by show (y 0).val = 400 * ((y 0).val / 400 % 25) + (y 0).val % 400; omega) k

theorem embBlock_eq (c : Dev nD) (t : Fin cfg0.N) :
    Body.embBlock m c t = embedding (M := 400) (iblk m c 0 t) (Q m c) (aB2 m c) := by
  refine (pay4_eq (iblk m c 0 t) (Body.support2 m c) (iblk m c 5 t)).trans ?_
  rw [support2_eq]
  exact congrArg (fun b => embedding (M := 400) (iblk m c 0 t) (Q m c) b) (funext fun k => blk_b2 m c t k)

theorem scoreBlock_eq (c : Dev nD) (t : Fin cfg0.N) :
    Body.scoreBlock m c t = score (M := 400) (embedding (M := 400) (iblk m c 0 t) (Q m c) (aB2 m c)) (aW3 m c) (aB3 m c) := by
  refine (pay5_eq (iblk m c 0 t) (Body.support2 m c) (iblk m c 5 t) (iblk m c 6 t) (iblk m c 7 t)).trans ?_
  rw [show k0_pay4 (F := Ideal) (iblk m c 0 t) (Body.support2 m c) (iblk m c 5 t) = embedding (M := 400) (iblk m c 0 t) (Q m c) (aB2 m c) from embBlock_eq m c t, blk_w3]
  exact congrArg (fun b => score (M := 400) (embedding (M := 400) (iblk m c 0 t) (Q m c) (aB2 m c)) (aW3 m c) b) (funext fun k => blk_b3 m c t k)

/-! ## The two output arrays after the run -/

/-- A point that writes an output back is a layer-1 point. -/
theorem layer1_of_flush8 (t : Fin cfg0.N) (h : (cfg0.win 8).flush t = true) : 25 ≤ t.val := by
  by_contra hlt
  rw [noFlush8 t (by omega)] at h
  exact Bool.false_ne_true h
theorem layer1_of_flush9 (t : Fin cfg0.N) (h : (cfg0.win 9).flush t = true) : 25 ≤ t.val := by
  by_contra hlt
  rw [noFlush9 t (by omega)] at h
  exact Bool.false_ne_true h

/-- What a layer-1 point writes back into the embedding is its block of the specification's embedding. -/
theorem flushed8_eq (c : Dev nD) (t : Fin cfg0.N) (ht : 25 ≤ t.val) :
    (dats m 0 c).flushed 8 t = ((cfg0.win 8).blk t).view.read (Elt Ideal) (E m c) := by
  show (cfg0.win 8).cut (grid0.coords t) ((dats m 0 c).after 8 t) = _
  rw [after_8]
  have hN : t.val < 50 := lt_of_lt_of_eq t.isLt (show cfg0.N = 50 from N_0)
  obtain ⟨-, -, -, -, -, -, -, -, -, -, -, -, -, -, -, -, e0, e1, -⟩ := idx_facts t
  have e0 := e0 ht
  funext j
  have hj0 := idx2_lt0 j
  have hj1 := idx2_lt1 j
  show Body.embBlock m c t j = E m c (((cfg0.win 8).blk t).view.emb j)
  rw [embBlock_eq]
  have hi0 : ((((cfg0.win 8).blk t).view.emb j) 0).val = win0_8.index t (0 : Fin 2) * 400 + 1 * (j 0).val := rfl
  have hi1 : ((((cfg0.win 8).blk t).view.emb j) 1).val = win0_8.index t (1 : Fin 2) * 256 + 1 * (j 1).val := rfl
  refine embedding_of_row (M' := 400) (M := 10000) (iblk m c 0 t) (aAdj m c) (Q m c) (aB2 m c) j _ (by rw [hi1]; omega) fun k => ?_
  exact adj_row m c t (j 0) _ (by rw [hi0]; omega) k

/-- What a layer-1 point writes back into the score is its block of the specification's score. -/
theorem flushed9_eq (c : Dev nD) (t : Fin cfg0.N) (ht : 25 ≤ t.val) :
    (dats m 0 c).flushed 9 t = ((cfg0.win 9).blk t).view.read (Elt Ideal) (S m c) := by
  show (cfg0.win 9).cut (grid0.coords t) ((dats m 0 c).after 9 t) = _
  rw [after_9]
  have hN : t.val < 50 := lt_of_lt_of_eq t.isLt (show cfg0.N = 50 from N_0)
  obtain ⟨-, -, -, -, -, -, -, -, -, -, -, -, -, -, -, -, -, -, e0, e1⟩ := idx_facts t
  have e0 := e0 ht
  funext j
  have hj0 := idx2_lt0 j
  have hj1 := idx2_lt1 j
  show Body.scoreBlock m c t j = S m c (((cfg0.win 9).blk t).view.emb j)
  rw [scoreBlock_eq]
  have hi0 : ((((cfg0.win 9).blk t).view.emb j) 0).val = win0_9.index t (0 : Fin 2) * 400 + 1 * (j 0).val := rfl
  have hi1 : ((((cfg0.win 9).blk t).view.emb j) 1).val = win0_9.index t (1 : Fin 2) * 1 + 1 * (j 1).val := rfl
  refine score_of_row (M' := 400) (M := 10000) _ (E m c) (aW3 m c) (aB3 m c) j _ (by rw [hi1]; omega) fun k => ?_
  refine embedding_of_row (M' := 400) (M := 10000) (iblk m c 0 t) (aAdj m c) (Q m c) (aB2 m c) (ix2 (j 0) k) (ix2 _ k) rfl fun k' => ?_
  exact adj_row m c t (j 0) _ (by rw [hi0]; omega) k'

/-- An index of the embedding is in the block of the point `t` iff each coordinate is in the block's range. -/
theorem mem_blk8 (t : Fin cfg0.N) (i : S10000x256.Idx) :
    i ∈ ((cfg0.win 8).blk t).view.set ↔ ∀ a : Fin 2, win0_8.index t a * S400x256.size a ≤ (i a).val ∧ (i a).val < win0_8.index t a * S400x256.size a + S400x256.size a := by
  show i ∈ ((View.whole main_v6_0).slice (win0_8.rect t)).set ↔ _
  rw [View.set_slice_whole, Rect.mem_set_unit]
  exact Iff.rfl

theorem mem_blk9 (t : Fin cfg0.N) (i : S10000x1.Idx) :
    i ∈ ((cfg0.win 9).blk t).view.set ↔ ∀ a : Fin 2, win0_9.index t a * S400x1.size a ≤ (i a).val ∧ (i a).val < win0_9.index t a * S400x1.size a + S400x1.size a := by
  show i ∈ ((View.whole main_v6_1).slice (win0_9.rect t)).set ↔ _
  rw [View.set_slice_whole, Rect.mem_set_unit]
  exact Iff.rfl

/-- Every row of the embedding is in the block of the layer-1 point of its row block. -/
theorem cover8 (i : S10000x256.Idx) : ∃ t : Fin cfg0.N, (cfg0.win 8).flush t = true ∧ i ∈ ((cfg0.win 8).blk t).view.set := by
  have hi0 := idx2_lt0 i
  have hi1 := idx2_lt1 i
  let t : Fin cfg0.N := ⟨25 + (i 0).val / 400, by have : cfg0.N = 50 := N_0; omega⟩
  have ht : 25 ≤ t.val := Nat.le_add_right _ _
  obtain ⟨-, -, -, -, -, -, -, -, -, -, -, -, -, -, -, -, e0, e1, -⟩ := idx_facts t
  have e0 : win0_8.index t (0 : Fin 2) = (i 0).val / 400 := (e0 ht).trans (by show 25 + (i 0).val / 400 - 25 = _; omega)
  refine ⟨t, flush8 t ht, ?_⟩
  rw [mem_blk8]
  intro a
  match a with
  | ⟨0, _⟩ => show win0_8.index t (0 : Fin 2) * 400 ≤ (i 0).val ∧ (i 0).val < win0_8.index t (0 : Fin 2) * 400 + 400; omega
  | ⟨1, _⟩ => show win0_8.index t (1 : Fin 2) * 256 ≤ (i 1).val ∧ (i 1).val < win0_8.index t (1 : Fin 2) * 256 + 256; omega

theorem cover9 (i : S10000x1.Idx) : ∃ t : Fin cfg0.N, (cfg0.win 9).flush t = true ∧ i ∈ ((cfg0.win 9).blk t).view.set := by
  have hi0 := idx2_lt0 i
  have hi1 := idx2_lt1 i
  let t : Fin cfg0.N := ⟨25 + (i 0).val / 400, by have : cfg0.N = 50 := N_0; omega⟩
  have ht : 25 ≤ t.val := Nat.le_add_right _ _
  obtain ⟨-, -, -, -, -, -, -, -, -, -, -, -, -, -, -, -, -, -, e0, e1⟩ := idx_facts t
  have e0 : win0_9.index t (0 : Fin 2) = (i 0).val / 400 := (e0 ht).trans (by show 25 + (i 0).val / 400 - 25 = _; omega)
  refine ⟨t, flush9 t ht, ?_⟩
  rw [mem_blk9]
  intro a
  match a with
  | ⟨0, _⟩ => show win0_9.index t (0 : Fin 2) * 400 ≤ (i 0).val ∧ (i 0).val < win0_9.index t (0 : Fin 2) * 400 + 400; omega
  | ⟨1, _⟩ => show win0_9.index t (1 : Fin 2) * 1 ≤ (i 1).val ∧ (i 1).val < win0_9.index t (1 : Fin 2) * 1 + 1; omega

/-- The embedding's array after the run is the specification's embedding, -/
theorem final8 (c : Dev nD) : (dats m 0 c).arrAt 8 cfg0.N = E m c :=
  (dats m 0 c).arrAt_eq_of_cover 8 (E m c) (fun t hf => flushed8_eq m c t (layer1_of_flush8 t hf)) cover8

/-- and the score's the specification's score. -/
theorem final9 (c : Dev nD) : (dats m 0 c).arrAt 9 cfg0.N = S m c :=
  (dats m 0 c).arrAt_eq_of_cover 9 (S m c) (fun t hf => flushed9_eq m c t (layer1_of_flush9 t hf)) cover9

/-! ## The run, read -/

/-- Every weakly fair execution of the fused kernel's program terminates with the score's array at the
    specification's score, the embedding's at the specification's embedding, and the arguments unchanged. -/
theorem run : θ_run defs (onTc (τ := τ) (main (F := Ideal))) ⟨m, fun _ => 0, ρ⟩ fun r => ∀ c : Dev nD,
      r.2.mem ((c.tc : Thread nD τ).loc main_v6_1) = S m c
      ∧ r.2.mem ((c.tc : Thread nD τ).loc main_v6_0) = E m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 9).trans (final9 m c), ((h c).1 8).trans (final8 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (Body.run_main m ρ)

end Cert.KernelIdeal.Result

end
-- ==== Proof.RefValue.lean ====
/-
  The reference's two results, as the run of its host operations states them, are the embedding and the score of
  the specification: a general dot with one contracted axis is the matrix product, a bias vector broadcast in two
  steps is the vector laid along every row, the maximum against a broadcast zero is the cut at zero, and the host's
  transpose of the last weight row is that row read as a column.
-/
import proofs.«154270_g52089363366198_cont_9to1_m_650_7_alg».proof.Proof.Gen.ReferenceIdeal.Run
import proofs.«154270_g52089363366198_cont_9to1_m_650_7_alg».proof.Proof.Spec

noncomputable section

namespace Cert.ReferenceIdeal.RefValue

open Cert.ReferenceIdeal Cert.ReferenceIdeal.Gen
open Idealize.ShloMosaic Idealize.ShloMosaic.ValueIdx Cert.LayoutLib Cert.DenseLib Cert.RowBlocks Cert.TransposedLib Cert.GcnSpec

theorem dotXW : dot_S10000x256_S256x256_S10000x256_1_0_0_1_n_n = DotDims.plain 10000 256 256 := rfl
theorem dotAP : dot_S10000x10000_S10000x256_S10000x256_1_0_0_1_n_n = DotDims.plain 10000 10000 256 := rfl
theorem dotEW : dot_S10000x256_S256x1_S10000x1_1_0_0_1_n_n = DotDims.plain 10000 256 1 := rfl

/-- The reference's second result is the embedding. -/
theorem emb_term (A : FVec Ideal S10000x10000 .f32) (X : FVec Ideal S10000x256 .f32) (W1 W2 : FVec Ideal S256x256 .f32)
    (b1 b2 : FVec Ideal S256 .f32) :
    maximumf (addf (Host.dotGeneral dot_S10000x10000_S10000x256_S10000x256_1_0_0_1_n_n none A (Host.dotGeneral dot_S10000x256_S256x256_S10000x256_1_0_0_1_n_n none (maximumf (addf (Host.dotGeneral dot_S10000x10000_S10000x256_S10000x256_1_0_0_1_n_n none A (Host.dotGeneral dot_S10000x256_S256x256_S10000x256_1_0_0_1_n_n none X W1)) (broadcastInDim S10000x256 ![0, 1] bcast_S1x256_S10000x256_0_1 (broadcastInDim S1x256 ![1] bcast_S256_S1x256_1 b1))) (broadcastInDim S10000x256 ![] bcast_S_S10000x256 (constant (F := Ideal) S_ .f32 0x00000000#32))) W2)) (broadcastInDim S10000x256 ![0, 1] bcast_S1x256_S10000x256_0_1 (broadcastInDim S1x256 ![1] bcast_S256_S1x256_1 b2))) (broadcastInDim S10000x256 ![] bcast_S_S10000x256 (constant (F := Ideal) S_ .f32 0x00000000#32))
      = embedding A (support2 A (support1 X W1) (fun c => b1 (ix1 c)) W2) (fun c => b2 (ix1 c)) := by
  have e1 : ∀ (L : FVec Ideal S10000x256 .f32) (R : FVec Ideal S256x256 .f32), Host.dotGeneral dot_S10000x256_S256x256_S10000x256_1_0_0_1_n_n none L R = mm L R :=
    fun L R => dotGeneral_eq_mm _ dotXW L R
  have e2 : ∀ (L : FVec Ideal S10000x10000 .f32) (R : FVec Ideal S10000x256 .f32), Host.dotGeneral dot_S10000x10000_S10000x256_S10000x256_1_0_0_1_n_n none L R = mm L R :=
    fun L R => dotGeneral_eq_mm _ dotAP L R
  have e3 : ∀ b : FVec Ideal S256 .f32, broadcastInDim S10000x256 ![0, 1] bcast_S1x256_S10000x256_0_1 (broadcastInDim S1x256 ![1] bcast_S256_S1x256_1 b) = rows (M := 10000) fun c => b (ix1 c) :=
    fun b => broadcastInDim_eq_rows b bcast_S256_S1x256_1 bcast_S1x256_S10000x256_0_1
  have e4 : ∀ Y : FVec Ideal S10000x256 .f32, maximumf Y (broadcastInDim S10000x256 ![] bcast_S_S10000x256 (constant (F := Ideal) S_ .f32 0x00000000#32)) = relu Y :=
    fun Y => maximumf_bcast_zero Y bcast_S_S10000x256
  rw [e1, e2, e3, e4, e1, e2, e3, e4]
  rfl

/-- The reference's first result is the score of an embedding. -/
theorem score_term (E : FVec Ideal S10000x256 .f32) (W3 : FVec Ideal S1x256 .f32) (b3 : FVec Ideal S1 .f32) :
    addf (Host.dotGeneral dot_S10000x256_S256x1_S10000x1_1_0_0_1_n_n none E (transpose S256x1 [1, 0] W3 transposes_S1x256_S256x1_1_0)) (broadcastInDim S10000x1 ![0, 1] bcast_S1x1_S10000x1_0_1 (broadcastInDim S1x1 ![1] bcast_S1_S1x1_1 b3))
      = score E W3 (fun c => b3 (ix1 c)) := by
  rw [dotGeneral_eq_mm _ dotEW, transpose_eq_tr, broadcastInDim_eq_rows]
  rfl

end Cert.ReferenceIdeal.RefValue

end
-- ==== Proof.lean ====
/-
  A fused two-layer graph convolution with a score head against its plain reference, over the extended reals:
      P = x · W1,   Q = relu (adj · P + b1) · W2,   emb = relu (adj · Q + b2),   score = emb · W3ᵀ + b3.
  The kernel forms P once and Q and emb and score 400 rows of the adjacency at a time; the reference forms each
  whole. Both arrange every sum the same way up to the order of its terms, a row of each stage depends on the same
  row of the adjacency only, and a change of float format is the identity on the extended reals: so the two results
  are equal entry by entry, for any arguments, finite or not. The kernel's two programs keep their arguments because
  the pipeline only reads them; nothing of the kernel's text is rewritten by its idealization.
-/
import proofs.«154270_g52089363366198_cont_9to1_m_650_7_alg».proof.Defs
import proofs.«154270_g52089363366198_cont_9to1_m_650_7_alg».proof.Proof.Gen.Kernel
import proofs.«154270_g52089363366198_cont_9to1_m_650_7_alg».proof.Proof.Gen.KernelIdeal
import proofs.«154270_g52089363366198_cont_9to1_m_650_7_alg».proof.Proof.Gen.ReferenceIdeal
import proofs.«154270_g52089363366198_cont_9to1_m_650_7_alg».proof.Proof.Gen.Pre_finite_inputs
import proofs.«154270_g52089363366198_cont_9to1_m_650_7_alg».proof.Proof.BodyBits.Frame
import proofs.«154270_g52089363366198_cont_9to1_m_650_7_alg».proof.Proof.BodyIdeal.Frame
import proofs.«154270_g52089363366198_cont_9to1_m_650_7_alg».proof.Proof.KernelValue
import proofs.«154270_g52089363366198_cont_9to1_m_650_7_alg».proof.Proof.RefValue
import Idealize.ShloMosaic.Adequacy
import Idealize.ShloMosaic.Init

noncomputable section

namespace Cert.Proof

open Idealize.ShloMosaic Idealize.SL.Sem

/-- The word-level kernel keeps its arguments. -/
theorem frame_p : Cert.frame_Kernel := fun m ρ _ => Cert.Kernel.Body.frame m ρ

/-- The idealized kernel keeps its arguments. -/
theorem frame_pi : Cert.frame_KernelIdeal := fun m ρ _ => Cert.KernelIdeal.Body.frame m ρ

/-- The reference keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the specification's score and embedding of arguments that agree. -/
theorem algebraic : Cert.algebraic_KernelIdeal_ReferenceIdeal := by
  intro m ρ m' ρ' _ hagree
  refine ⟨fun c => Cert.KernelIdeal.Result.S m c, fun c => Cert.KernelIdeal.Result.E m c, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.ReferenceIdeal.RefValue.score_term _ _ _).trans
      (congrArg (fun E => Cert.GcnSpec.score E _ _) (Cert.ReferenceIdeal.RefValue.emb_term _ _ _ _ _ _))
  · rw [(hagree c).1, (hagree c).2.1, (hagree c).2.2.1, (hagree c).2.2.2.1, (hagree c).2.2.2.2.1, (hagree c).2.2.2.2.2.1]
    exact Cert.ReferenceIdeal.RefValue.emb_term _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
